-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v216) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x2 : S_.BroadcastsInDim S8192x2 (![] : Fin 0 → Fin S8192x2.rank)
  reducesTo_S8192x2_S_d0_1 : S8192x2.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  main_v18

def fn {F : FTy → Type} [FloatOps F] (main_arg0 : FVec F S8192x1024 .f32) (main_arg1 : IVec S8192x2 32) (main_arg2 : FVec F S8192x2 .f32) (main_arg3 : FVec F S8x1024x4096 .f32) (main_arg4 : FVec F S8x4096x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x2 .f32 := Host.absf main_arg2
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_v13 main_v16
-- ==== Kernel.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S8 : Shape := ⟨1, ![8]⟩
abbrev S8192x2x1 : Shape := ⟨3, ![8192, 2, 1]⟩
abbrev S1x1x8 : Shape := ⟨3, ![1, 1, 8]⟩
abbrev S8192x2x8 : Shape := ⟨3, ![8192, 2, 8]⟩
abbrev S_ : Shape := ⟨0, ![]⟩
abbrev S8192x8 : Shape := ⟨2, ![8192, 8]⟩
abbrev S512x1024 : Shape := ⟨2, ![512, 1024]⟩
abbrev S1x1024x1024 : Shape := ⟨3, ![1, 1024, 1024]⟩
abbrev S512x8 : Shape := ⟨2, ![512, 8]⟩
abbrev S1024x1024 : Shape := ⟨2, ![1024, 1024]⟩
abbrev S512 : Shape := ⟨1, ![512]⟩
abbrev S512x1 : Shape := ⟨2, ![512, 1]⟩

abbrev nBuf : Space → Nat
  | .hbm => 23
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x2, .i32⟩
  | .hbm, ⟨2, _⟩ => ⟨S8192x2, .f32⟩
  | .hbm, ⟨3, _⟩ => ⟨S8x1024x4096, .f32⟩
  | .hbm, ⟨4, _⟩ => ⟨S8x4096x1024, .f32⟩
  | .hbm, ⟨5, _⟩ => ⟨S8, .i32⟩
  | .hbm, ⟨6, _⟩ => ⟨S8192x2x1, .i32⟩
  | .hbm, ⟨7, _⟩ => ⟨S1x1x8, .i32⟩
  | .hbm, ⟨8, _⟩ => ⟨S8192x2x8, .i32⟩
  | .hbm, ⟨9, _⟩ => ⟨S8192x2x8, .i32⟩
  | .hbm, ⟨10, _⟩ => ⟨S8192x2x8, .i1⟩
  | .hbm, ⟨11, _⟩ => ⟨S8192x2x1, .f32⟩
  | .hbm, ⟨12, _⟩ => ⟨S_, .f32⟩
  | .hbm, ⟨13, _⟩ => ⟨S_, .f32⟩
  | .hbm, ⟨14, _⟩ => ⟨S8192x2x8, .f32⟩
  | .hbm, ⟨15, _⟩ => ⟨S8192x2x8, .f32⟩
  | .hbm, ⟨16, _⟩ => ⟨S8192x2x8, .f32⟩
  | .hbm, ⟨17, _⟩ => ⟨S_, .f32⟩
  | .hbm, ⟨18, _⟩ => ⟨S8192x8, .f32⟩
  | .hbm, ⟨19, _⟩ => ⟨S8192x1024, .bf16⟩
  | .hbm, ⟨20, _⟩ => ⟨S8x1024x4096, .bf16⟩
  | .hbm, ⟨21, _⟩ => ⟨S8x4096x1024, .bf16⟩
  | .hbm, ⟨22, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x8, .f32⟩
  | .local _ .vmem, ⟨7, _⟩ => ⟨S512x8, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 4], ![false, false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let arg2 : BitVec 32 := BitVec.ofNat 32 (i 2).val
  let c3_i32 : BitVec 32 := 3#32
  let v44 : BitVec 1 := Scalar.cmpi .eq arg2 c3_i32
  let v45 : BitVec 1 := Scalar.andi v43 v44
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  bcast_S8192x2_S8192x2x1_0_1 : S8192x2.BroadcastsInDim S8192x2x1 (![0, 1] : Fin 2 → Fin S8192x2x1.rank)
  bcast_S8_S1x1x8_2 : S8.BroadcastsInDim S1x1x8 (![2] : Fin 1 → Fin S1x1x8.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  bcast_S_S8192x2x8 : S_.BroadcastsInDim S8192x2x8 (![] : Fin 0 → Fin S8192x2x8.rank)
  reducesTo_S8192x2x8_S8192x8_d1 : S8192x2x8.ReducesTo [1] S8192x8
  h_S_ : 0 < S_.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S512x8_S512x8_0_0 : ∀ a, (![0, 0] : Fin 2 → Nat) a + S512x8.size a ≤ S512x8.size a
  h_S512x8 : 0 < S512x8.numel
  shapeCasts_S512x8_S512x8 : S512x8.ShapeCasts S512x8
  iota_S512x8_d1_w32 : S512x8.Iotas .tc 32 [1]
  reduces_S512x8_S512 : S512x8.Reduces [1] S512
  shapeCasts_S512_S512x1 : S512.ShapeCasts S512x1
  broadcasts_S512x1_S512x1024 : S512x1.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x1024.size a
  hwx0_2 : ∀ i : grid0.Coords, EltTy.bits .bf16 = 32 ∨ (Rect.block (s := S8x4096x1024) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8.size a ≤ S8192x8.size a
  hwx0_3 : ∀ i : grid0.Coords, EltTy.bits .f32 = 32 ∨ (Rect.block (s := S8192x8) S512x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v9) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x2 : Shape := ⟨2, ![8192, 2]⟩
abbrev S8x1024x4096 : Shape := ⟨3, ![8, 1024, 4096]⟩
abbrev S8x4096x1024 : Shape := ⟨3, ![8, 4096, 1024]⟩
abbrev S_ : Shape := ⟨0, ![]⟩
abbrev S8192 : Shape := ⟨1, ![8192]⟩
abbrev S1x1024x4096 : Shape := ⟨3, ![1, 1024, 4096]⟩
abbrev S1024x4096 : Shape := ⟨2, ![1024, 4096]⟩
abbrev S8192x4096 : Shape := ⟨2, ![8192, 4096]⟩
abbrev S1x4096x1024 : Shape := ⟨3, ![1, 4096, 1024]⟩
abbrev S4096x1024 : Shape := ⟨2, ![4096, 1024]⟩
abbrev S8192x1 : Shape := ⟨2, ![8192, 1]⟩

abbrev nBuf : Space → Nat
  | .hbm => 295
  | .vmem => 0
  | .smem => 0
  | _ => 0

abbrev hbmTy0_0 (i : Nat) : BufTy := match i % 128 with
  | 0 => ⟨S8192x1024, .f32⟩
  | 1 => ⟨S8192x2, .i32⟩
  | 2 => ⟨S8192x2, .f32⟩
  | 3 => ⟨S8x1024x4096, .f32⟩
  | 4 => ⟨S8x4096x1024, .f32⟩
  | 5 => ⟨S_, .f32⟩
  | 6 => ⟨S8192x1024, .f32⟩
  | 7 => ⟨S_, .i32⟩
  | 8 => ⟨S8192x2, .i32⟩
  | 9 => ⟨S8192x2, .i1⟩
  | 10 => ⟨S_, .f32⟩
  | 11 => ⟨S_, .f32⟩
  | 12 => ⟨S8192x2, .f32⟩
  | 13 => ⟨S8192x2, .f32⟩
  | 14 => ⟨S_, .f32⟩
  | 15 => ⟨S8192, .f32⟩
  | 16 => ⟨S1x1024x4096, .f32⟩
  | 17 => ⟨S1024x4096, .f32⟩
  | 18 => ⟨S8192x4096, .f32⟩
  | 19 => ⟨S8192x4096, .f32⟩
  | 20 => ⟨S8192x4096, .f32⟩
  | 21 => ⟨S_, .f32⟩
  | 22 => ⟨S8192x4096, .f32⟩
  | 23 => ⟨S8192x4096, .f32⟩
  | 24 => ⟨S8192x4096, .f32⟩
  | 25 => ⟨S_, .f32⟩
  | 26 => ⟨S8192x4096, .f32⟩
  | 27 => ⟨S8192x4096, .f32⟩
  | 28 => ⟨S8192x4096, .f32⟩
  | 29 => ⟨S_, .f32⟩
  | 30 => ⟨S8192x4096, .f32⟩
  | 31 => ⟨S8192x4096, .f32⟩
  | 32 => ⟨S_, .f32⟩
  | 33 => ⟨S8192x4096, .f32⟩
  | 34 => ⟨S8192x4096, .f32⟩
  | 35 => ⟨S8192x4096, .f32⟩
  | 36 => ⟨S1x4096x1024, .f32⟩
  | 37 => ⟨S4096x1024, .f32⟩
  | 38 => ⟨S8192x1024, .f32⟩
  | 39 => ⟨S8192x1, .f32⟩
  | 40 => ⟨S8192x1024, .f32⟩
  | 41 => ⟨S8192x1024, .f32⟩
  | 42 => ⟨S8192x1024, .f32⟩
  | 43 => ⟨S_, .i32⟩
  | 44 => ⟨S8192x2, .i32⟩
  | 45 => ⟨S8192x2, .i1⟩
  | 46 => ⟨S_, .f32⟩
  | 47 => ⟨S_, .f32⟩
  | 48 => ⟨S8192x2, .f32⟩
  | 49 => ⟨S8192x2, .f32⟩
  | 50 => ⟨S_, .f32⟩
  | 51 => ⟨S8192, .f32⟩
  | 52 => ⟨S1x1024x4096, .f32⟩
  | 53 => ⟨S1024x4096, .f32⟩
  | 54 => ⟨S8192x4096, .f32⟩
  | 55 => ⟨S8192x4096, .f32⟩
  | 56 => ⟨S8192x4096, .f32⟩
  | 57 => ⟨S_, .f32⟩
  | 58 => ⟨S8192x4096, .f32⟩
  | 59 => ⟨S8192x4096, .f32⟩
  | 60 => ⟨S8192x4096, .f32⟩
  | 61 => ⟨S_, .f32⟩
  | 62 => ⟨S8192x4096, .f32⟩
  | 63 => ⟨S8192x4096, .f32⟩
  | 64 => ⟨S8192x4096, .f32⟩
  | 65 => ⟨S_, .f32⟩
  | 66 => ⟨S8192x4096, .f32⟩
  | 67 => ⟨S8192x4096, .f32⟩
  | 68 => ⟨S_, .f32⟩
  | 69 => ⟨S8192x4096, .f32⟩
  | 70 => ⟨S8192x4096, .f32⟩
  | 71 => ⟨S8192x4096, .f32⟩
  | 72 => ⟨S1x4096x1024, .f32⟩
  | 73 => ⟨S4096x1024, .f32⟩
  | 74 => ⟨S8192x1024, .f32⟩
  | 75 => ⟨S8192x1, .f32⟩
  | 76 => ⟨S8192x1024, .f32⟩
  | 77 => ⟨S8192x1024, .f32⟩
  | 78 => ⟨S8192x1024, .f32⟩
  | 79 => ⟨S_, .i32⟩
  | 80 => ⟨S8192x2, .i32⟩
  | 81 => ⟨S8192x2, .i1⟩
  | 82 => ⟨S_, .f32⟩
  | 83 => ⟨S_, .f32⟩
  | 84 => ⟨S8192x2, .f32⟩
  | 85 => ⟨S8192x2, .f32⟩
  | 86 => ⟨S_, .f32⟩
  | 87 => ⟨S8192, .f32⟩
  | 88 => ⟨S1x1024x4096, .f32⟩
  | 89 => ⟨S1024x4096, .f32⟩
  | 90 => ⟨S8192x4096, .f32⟩
  | 91 => ⟨S8192x4096, .f32⟩
  | 92 => ⟨S8192x4096, .f32⟩
  | 93 => ⟨S_, .f32⟩
  | 94 => ⟨S8192x4096, .f32⟩
  | 95 => ⟨S8192x4096, .f32⟩
  | 96 => ⟨S8192x4096, .f32⟩
  | 97 => ⟨S_, .f32⟩
  | 98 => ⟨S8192x4096, .f32⟩
  | 99 => ⟨S8192x4096, .f32⟩
  | 100 => ⟨S8192x4096, .f32⟩
  | 101 => ⟨S_, .f32⟩
  | 102 => ⟨S8192x4096, .f32⟩
  | 103 => ⟨S8192x4096, .f32⟩
  | 104 => ⟨S_, .f32⟩
  | 105 => ⟨S8192x4096, .f32⟩
  | 106 => ⟨S8192x4096, .f32⟩
  | 107 => ⟨S8192x4096, .f32⟩
  | 108 => ⟨S1x4096x1024, .f32⟩
  | 109 => ⟨S4096x1024, .f32⟩
  | 110 => ⟨S8192x1024, .f32⟩
  | 111 => ⟨S8192x1, .f32⟩
  | 112 => ⟨S8192x1024, .f32⟩
  | 113 => ⟨S8192x1024, .f32⟩
  | 114 => ⟨S8192x1024, .f32⟩
  | 115 => ⟨S_, .i32⟩
  | 116 => ⟨S8192x2, .i32⟩
  | 117 => ⟨S8192x2, .i1⟩
  | 118 => ⟨S_, .f32⟩
  | 119 => ⟨S_, .f32⟩
  | 120 => ⟨S8192x2, .f32⟩
  | 121 => ⟨S8192x2, .f32⟩
  | 122 => ⟨S_, .f32⟩
  | 123 => ⟨S8192, .f32⟩
  | 124 => ⟨S1x1024x4096, .f32⟩
  | 125 => ⟨S1024x4096, .f32⟩
  | 126 => ⟨S8192x4096, .f32⟩
  | 127 => ⟨S8192x4096, .f32⟩
  | _ => ⟨S8192x1024, .f32⟩

abbrev hbmTy0_1 (i : Nat) : BufTy := match i % 128 with
  | 0 => ⟨S8192x4096, .f32⟩
  | 1 => ⟨S_, .f32⟩
  | 2 => ⟨S8192x4096, .f32⟩
  | 3 => ⟨S8192x4096, .f32⟩
  | 4 => ⟨S8192x4096, .f32⟩
  | 5 => ⟨S_, .f32⟩
  | 6 => ⟨S8192x4096, .f32⟩
  | 7 => ⟨S8192x4096, .f32⟩
  | 8 => ⟨S8192x4096, .f32⟩
  | 9 => ⟨S_, .f32⟩
  | 10 => ⟨S8192x4096, .f32⟩
  | 11 => ⟨S8192x4096, .f32⟩
  | 12 => ⟨S_, .f32⟩
  | 13 => ⟨S8192x4096, .f32⟩
  | 14 => ⟨S8192x4096, .f32⟩
  | 15 => ⟨S8192x4096, .f32⟩
  | 16 => ⟨S1x4096x1024, .f32⟩
  | 17 => ⟨S4096x1024, .f32⟩
  | 18 => ⟨S8192x1024, .f32⟩
  | 19 => ⟨S8192x1, .f32⟩
  | 20 => ⟨S8192x1024, .f32⟩
  | 21 => ⟨S8192x1024, .f32⟩
  | 22 => ⟨S8192x1024, .f32⟩
  | 23 => ⟨S_, .i32⟩
  | 24 => ⟨S8192x2, .i32⟩
  | 25 => ⟨S8192x2, .i1⟩
  | 26 => ⟨S_, .f32⟩
  | 27 => ⟨S_, .f32⟩
  | 28 => ⟨S8192x2, .f32⟩
  | 29 => ⟨S8192x2, .f32⟩
  | 30 => ⟨S_, .f32⟩
  | 31 => ⟨S8192, .f32⟩
  | 32 => ⟨S1x1024x4096, .f32⟩
  | 33 => ⟨S1024x4096, .f32⟩
  | 34 => ⟨S8192x4096, .f32⟩
  | 35 => ⟨S8192x4096, .f32⟩
  | 36 => ⟨S8192x4096, .f32⟩
  | 37 => ⟨S_, .f32⟩
  | 38 => ⟨S8192x4096, .f32⟩
  | 39 => ⟨S8192x4096, .f32⟩
  | 40 => ⟨S8192x4096, .f32⟩
  | 41 => ⟨S_, .f32⟩
  | 42 => ⟨S8192x4096, .f32⟩
  | 43 => ⟨S8192x4096, .f32⟩
  | 44 => ⟨S8192x4096, .f32⟩
  | 45 => ⟨S_, .f32⟩
  | 46 => ⟨S8192x4096, .f32⟩
  | 47 => ⟨S8192x4096, .f32⟩
  | 48 => ⟨S_, .f32⟩
  | 49 => ⟨S8192x4096, .f32⟩
  | 50 => ⟨S8192x4096, .f32⟩
  | 51 => ⟨S8192x4096, .f32⟩
  | 52 => ⟨S1x4096x1024, .f32⟩
  | 53 => ⟨S4096x1024, .f32⟩
  | 54 => ⟨S8192x1024, .f32⟩
  | 55 => ⟨S8192x1, .f32⟩
  | 56 => ⟨S8192x1024, .f32⟩
  | 57 => ⟨S8192x1024, .f32⟩
  | 58 => ⟨S8192x1024, .f32⟩
  | 59 => ⟨S_, .i32⟩
  | 60 => ⟨S8192x2, .i32⟩
  | 61 => ⟨S8192x2, .i1⟩
  | 62 => ⟨S_, .f32⟩
  | 63 => ⟨S_, .f32⟩
  | 64 => ⟨S8192x2, .f32⟩
  | 65 => ⟨S8192x2, .f32⟩
  | 66 => ⟨S_, .f32⟩
  | 67 => ⟨S8192, .f32⟩
  | 68 => ⟨S1x1024x4096, .f32⟩
  | 69 => ⟨S1024x4096, .f32⟩
  | 70 => ⟨S8192x4096, .f32⟩
  | 71 => ⟨S8192x4096, .f32⟩
  | 72 => ⟨S8192x4096, .f32⟩
  | 73 => ⟨S_, .f32⟩
  | 74 => ⟨S8192x4096, .f32⟩
  | 75 => ⟨S8192x4096, .f32⟩
  | 76 => ⟨S8192x4096, .f32⟩
  | 77 => ⟨S_, .f32⟩
  | 78 => ⟨S8192x4096, .f32⟩
  | 79 => ⟨S8192x4096, .f32⟩
  | 80 => ⟨S8192x4096, .f32⟩
  | 81 => ⟨S_, .f32⟩
  | 82 => ⟨S8192x4096, .f32⟩
  | 83 => ⟨S8192x4096, .f32⟩
  | 84 => ⟨S_, .f32⟩
  | 85 => ⟨S8192x4096, .f32⟩
  | 86 => ⟨S8192x4096, .f32⟩
  | 87 => ⟨S8192x4096, .f32⟩
  | 88 => ⟨S1x4096x1024, .f32⟩
  | 89 => ⟨S4096x1024, .f32⟩
  | 90 => ⟨S8192x1024, .f32⟩
  | 91 => ⟨S8192x1, .f32⟩
  | 92 => ⟨S8192x1024, .f32⟩
  | 93 => ⟨S8192x1024, .f32⟩
  | 94 => ⟨S8192x1024, .f32⟩
  | 95 => ⟨S_, .i32⟩
  | 96 => ⟨S8192x2, .i32⟩
  | 97 => ⟨S8192x2, .i1⟩
  | 98 => ⟨S_, .f32⟩
  | 99 => ⟨S_, .f32⟩
  | 100 => ⟨S8192x2, .f32⟩
  | 101 => ⟨S8192x2, .f32⟩
  | 102 => ⟨S_, .f32⟩
  | 103 => ⟨S8192, .f32⟩
  | 104 => ⟨S1x1024x4096, .f32⟩
  | 105 => ⟨S1024x4096, .f32⟩
  | 106 => ⟨S8192x4096, .f32⟩
  | 107 => ⟨S8192x4096, .f32⟩
  | 108 => ⟨S8192x4096, .f32⟩
  | 109 => ⟨S_, .f32⟩
  | 110 => ⟨S8192x4096, .f32⟩
  | 111 => ⟨S8192x4096, .f32⟩
  | 112 => ⟨S8192x4096, .f32⟩
  | 113 => ⟨S_, .f32⟩
  | 114 => ⟨S8192x4096, .f32⟩
  | 115 => ⟨S8192x4096, .f32⟩
  | 116 => ⟨S8192x4096, .f32⟩
  | 117 => ⟨S_, .f32⟩
  | 118 => ⟨S8192x4096, .f32⟩
  | 119 => ⟨S8192x4096, .f32⟩
  | 120 => ⟨S_, .f32⟩
  | 121 => ⟨S8192x4096, .f32⟩
  | 122 => ⟨S8192x4096, .f32⟩
  | 123 => ⟨S8192x4096, .f32⟩
  | 124 => ⟨S1x4096x1024, .f32⟩
  | 125 => ⟨S4096x1024, .f32⟩
  | 126 => ⟨S8192x1024, .f32⟩
  | 127 => ⟨S8192x1, .f32⟩
  | _ => ⟨S8192x1024, .f32⟩

abbrev hbmTy0_2 (i : Nat) : BufTy := match i % 128 with
  | 0 => ⟨S8192x1024, .f32⟩
  | 1 => ⟨S8192x1024, .f32⟩
  | 2 => ⟨S8192x1024, .f32⟩
  | 3 => ⟨S_, .i32⟩
  | 4 => ⟨S8192x2, .i32⟩
  | 5 => ⟨S8192x2, .i1⟩
  | 6 => ⟨S_, .f32⟩
  | 7 => ⟨S_, .f32⟩
  | 8 => ⟨S8192x2, .f32⟩
  | 9 => ⟨S8192x2, .f32⟩
  | 10 => ⟨S_, .f32⟩
  | 11 => ⟨S8192, .f32⟩
  | 12 => ⟨S1x1024x4096, .f32⟩
  | 13 => ⟨S1024x4096, .f32⟩
  | 14 => ⟨S8192x4096, .f32⟩
  | 15 => ⟨S8192x4096, .f32⟩
  | 16 => ⟨S8192x4096, .f32⟩
  | 17 => ⟨S_, .f32⟩
  | 18 => ⟨S8192x4096, .f32⟩
  | 19 => ⟨S8192x4096, .f32⟩
  | 20 => ⟨S8192x4096, .f32⟩
  | 21 => ⟨S_, .f32⟩
  | 22 => ⟨S8192x4096, .f32⟩
  | 23 => ⟨S8192x4096, .f32⟩
  | 24 => ⟨S8192x4096, .f32⟩
  | 25 => ⟨S_, .f32⟩
  | 26 => ⟨S8192x4096, .f32⟩
  | 27 => ⟨S8192x4096, .f32⟩
  | 28 => ⟨S_, .f32⟩
  | 29 => ⟨S8192x4096, .f32⟩
  | 30 => ⟨S8192x4096, .f32⟩
  | 31 => ⟨S8192x4096, .f32⟩
  | 32 => ⟨S1x4096x1024, .f32⟩
  | 33 => ⟨S4096x1024, .f32⟩
  | 34 => ⟨S8192x1024, .f32⟩
  | 35 => ⟨S8192x1, .f32⟩
  | 36 => ⟨S8192x1024, .f32⟩
  | 37 => ⟨S8192x1024, .f32⟩
  | 38 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_11 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_13 : Ref sig .tc := ⟨.hbm, 79, rfl⟩
abbrev main_v55 : Ref sig .tc := ⟨.hbm, 80, rfl⟩
abbrev main_v56 : Ref sig .tc := ⟨.hbm, 81, rfl⟩
abbrev main_cst_14 : Ref sig .tc := ⟨.hbm, 82, rfl⟩
abbrev main_call2_v0 : Ref sig .tc := ⟨.hbm, 83, rfl⟩
abbrev main_call2_v1 : Ref sig .tc := ⟨.hbm, 84, rfl⟩
abbrev main_v57 : Ref sig .tc := ⟨.hbm, 85, rfl⟩
abbrev main_cst_15 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_16 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_17 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_18 : Ref sig .tc := ⟨.hbm, 101, rfl⟩
abbrev main_v70 : Ref sig .tc := ⟨.hbm, 102, rfl⟩
abbrev main_v71 : Ref sig .tc := ⟨.hbm, 103, rfl⟩
abbrev main_cst_19 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_c_20 : Ref sig .tc := ⟨.hbm, 115, rfl⟩
abbrev main_v82 : Ref sig .tc := ⟨.hbm, 116, rfl⟩
abbrev main_v83 : Ref sig .tc := ⟨.hbm, 117, rfl⟩
abbrev main_cst_21 : Ref sig .tc := ⟨.hbm, 118, rfl⟩
abbrev main_call3_v0 : Ref sig .tc := ⟨.hbm, 119, rfl⟩
abbrev main_call3_v1 : Ref sig .tc := ⟨.hbm, 120, rfl⟩
abbrev main_v84 : Ref sig .tc := ⟨.hbm, 121, rfl⟩
abbrev main_cst_22 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_23 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_24 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_25 : Ref sig .tc := ⟨.hbm, 137, rfl⟩
abbrev main_v97 : Ref sig .tc := ⟨.hbm, 138, rfl⟩
abbrev main_v98 : Ref sig .tc := ⟨.hbm, 139, rfl⟩
abbrev main_cst_26 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_c_27 : Ref sig .tc := ⟨.hbm, 151, rfl⟩
abbrev main_v109 : Ref sig .tc := ⟨.hbm, 152, rfl⟩
abbrev main_v110 : Ref sig .tc := ⟨.hbm, 153, rfl⟩
abbrev main_cst_28 : Ref sig .tc := ⟨.hbm, 154, rfl⟩
abbrev main_call4_v0 : Ref sig .tc := ⟨.hbm, 155, rfl⟩
abbrev main_call4_v1 : Ref sig .tc := ⟨.hbm, 156, rfl⟩
abbrev main_v111 : Ref sig .tc := ⟨.hbm, 157, rfl⟩
abbrev main_cst_29 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_30 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_31 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_32 : Ref sig .tc := ⟨.hbm, 173, rfl⟩
abbrev main_v124 : Ref sig .tc := ⟨.hbm, 174, rfl⟩
abbrev main_v125 : Ref sig .tc := ⟨.hbm, 175, rfl⟩
abbrev main_cst_33 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_c_34 : Ref sig .tc := ⟨.hbm, 187, rfl⟩
abbrev main_v136 : Ref sig .tc := ⟨.hbm, 188, rfl⟩
abbrev main_v137 : Ref sig .tc := ⟨.hbm, 189, rfl⟩
abbrev main_cst_35 : Ref sig .tc := ⟨.hbm, 190, rfl⟩
abbrev main_call5_v0 : Ref sig .tc := ⟨.hbm, 191, rfl⟩
abbrev main_call5_v1 : Ref sig .tc := ⟨.hbm, 192, rfl⟩
abbrev main_v138 : Ref sig .tc := ⟨.hbm, 193, rfl⟩
abbrev main_cst_36 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_cst_37 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_cst_38 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_cst_39 : Ref sig .tc := ⟨.hbm, 209, rfl⟩
abbrev main_v151 : Ref sig .tc := ⟨.hbm, 210, rfl⟩
abbrev main_v152 : Ref sig .tc := ⟨.hbm, 211, rfl⟩
abbrev main_cst_40 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_c_41 : Ref sig .tc := ⟨.hbm, 223, rfl⟩
abbrev main_v163 : Ref sig .tc := ⟨.hbm, 224, rfl⟩
abbrev main_v164 : Ref sig .tc := ⟨.hbm, 225, rfl⟩
abbrev main_cst_42 : Ref sig .tc := ⟨.hbm, 226, rfl⟩
abbrev main_call6_v0 : Ref sig .tc := ⟨.hbm, 227, rfl⟩
abbrev main_call6_v1 : Ref sig .tc := ⟨.hbm, 228, rfl⟩
abbrev main_v165 : Ref sig .tc := ⟨.hbm, 229, rfl⟩
abbrev main_cst_43 : Ref sig .tc := ⟨.hbm, 230, rfl⟩
abbrev main_v166 : Ref sig .tc := ⟨.hbm, 231, rfl⟩
abbrev main_v167 : Ref sig .tc := ⟨.hbm, 232, rfl⟩
abbrev main_v168 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_cst_44 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_cst_45 : Ref sig .tc := ⟨.hbm, 241, rfl⟩
abbrev main_v175 : Ref sig .tc := ⟨.hbm, 242, rfl⟩
abbrev main_v176 : Ref sig .tc := ⟨.hbm, 243, rfl⟩
abbrev main_v177 : Ref sig .tc := ⟨.hbm, 244, rfl⟩
abbrev main_cst_46 : Ref sig .tc := ⟨.hbm, 245, rfl⟩
abbrev main_v178 : Ref sig .tc := ⟨.hbm, 246, rfl⟩
abbrev main_v179 : Ref sig .tc := ⟨.hbm, 247, rfl⟩
abbrev main_cst_47 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_c_48 : Ref sig .tc := ⟨.hbm, 259, rfl⟩
abbrev main_v190 : Ref sig .tc := ⟨.hbm, 260, rfl⟩
abbrev main_v191 : Ref sig .tc := ⟨.hbm, 261, rfl⟩
abbrev main_cst_49 : Ref sig .tc := ⟨.hbm, 262, rfl⟩
abbrev main_call7_v0 : Ref sig .tc := ⟨.hbm, 263, rfl⟩
abbrev main_call7_v1 : Ref sig .tc := ⟨.hbm, 264, rfl⟩
abbrev main_v192 : Ref sig .tc := ⟨.hbm, 265, rfl⟩
abbrev main_cst_50 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_cst_51 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_cst_52 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_cst_53 : Ref sig .tc := ⟨.hbm, 281, rfl⟩
abbrev main_v205 : Ref sig .tc := ⟨.hbm, 282, rfl⟩
abbrev main_v206 : Ref sig .tc := ⟨.hbm, 283, rfl⟩
abbrev main_cst_54 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩

abbrev nD : Nat := 1
abbrev τ : Topo := Topo.v7x

variable {F : FTy → Type} [FloatOps F]

class Facts₀ : Prop where
  bcast_S_S8192x1024 : S_.BroadcastsInDim S8192x1024 (![] : Fin 0 → Fin S8192x1024.rank)
  bcast_S_S8192x2 : S_.BroadcastsInDim S8192x2 (![] : Fin 0 → Fin S8192x2.rank)
  reducesTo_S8192x2_S8192_d1 : S8192x2.ReducesTo [1] S8192
  h_S_ : 0 < S_.numel
  slices_S8x1024x4096_S1x1024x4096_0_0_0 : S8x1024x4096.Slices ![0, 0, 0] S1x1024x4096
  shapeCasts_S1x1024x4096_S1024x4096 : S1x1024x4096.ShapeCasts S1024x4096
  bcast_S_S8192x4096 : S_.BroadcastsInDim S8192x4096 (![] : Fin 0 → Fin S8192x4096.rank)
  slices_S8x4096x1024_S1x4096x1024_0_0_0 : S8x4096x1024.Slices ![0, 0, 0] S1x4096x1024
  shapeCasts_S1x4096x1024_S4096x1024 : S1x4096x1024.ShapeCasts S4096x1024
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  slices_S8x1024x4096_S1x1024x4096_1_0_0 : S8x1024x4096.Slices ![1, 0, 0] S1x1024x4096
  slices_S8x4096x1024_S1x4096x1024_1_0_0 : S8x4096x1024.Slices ![1, 0, 0] S1x4096x1024
  slices_S8x1024x4096_S1x1024x4096_2_0_0 : S8x1024x4096.Slices ![2, 0, 0] S1x1024x4096
  slices_S8x4096x1024_S1x4096x1024_2_0_0 : S8x4096x1024.Slices ![2, 0, 0] S1x4096x1024
  slices_S8x1024x4096_S1x1024x4096_3_0_0 : S8x1024x4096.Slices ![3, 0, 0] S1x1024x4096
  slices_S8x4096x1024_S1x4096x1024_3_0_0 : S8x4096x1024.Slices ![3, 0, 0] S1x4096x1024
  slices_S8x1024x4096_S1x1024x4096_4_0_0 : S8x1024x4096.Slices ![4, 0, 0] S1x1024x4096
  slices_S8x4096x1024_S1x4096x1024_4_0_0 : S8x4096x1024.Slices ![4, 0, 0] S1x4096x1024
  slices_S8x1024x4096_S1x1024x4096_5_0_0 : S8x1024x4096.Slices ![5, 0, 0] S1x1024x4096
  slices_S8x4096x1024_S1x4096x1024_5_0_0 : S8x4096x1024.Slices ![5, 0, 0] S1x4096x1024
  slices_S8x1024x4096_S1x1024x4096_6_0_0 : S8x1024x4096.Slices ![6, 0, 0] S1x1024x4096
  slices_S8x4096x1024_S1x4096x1024_6_0_0 : S8x4096x1024.Slices ![6, 0, 0] S1x4096x1024
  slices_S8x1024x4096_S1x1024x4096_7_0_0 : S8x1024x4096.Slices ![7, 0, 0] S1x1024x4096
  slices_S8x4096x1024_S1x4096x1024_7_0_0 : S8x4096x1024.Slices ![7, 0, 0] S1x4096x1024
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.Algebra.lean ====
/-
  The algebra that joins the two sides.

  Both programs compute, for a token `t` and an output column `d`,
      ∑ₑ (∑_f gelu (∑ₘ x t m · w1 e m f) · w2 e f d) · wₑ t ,
  the sum over the eight experts of the expert's feed-forward output weighted by the token's combine weight
  for that expert.  One side adds the eight expert terms one after the other; the other side cuts the hidden
  axis `f` of length 4096 into four chunks of 1024 and adds the 32 chunk terms (S e c) · wₑ one after the other.
  The two agree because a finite sum may be cut into chunks (true of all extended reals) and because the factor wₑ
  distributes over the four chunk sums — which is true of REAL numbers and false at the infinities, so this is
  where the finiteness of the inputs is used: every chunk sum and every weight is a real number.
-/
import Idealize.ShloMosaic.PureOps.Ideal.Laws

noncomputable section

namespace Cert.MoE

open Idealize.ShloMosaic

/-- An extended real that is a real number. -/
def IsReal (a : EReal) : Prop := ∃ r : ℝ, a = (r : EReal)

theorem IsReal.zero : IsReal (0 : EReal) := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.tanh {a : EReal} (ha : IsReal a) : IsReal (Ideal.tanh a) := by
  obtain ⟨x, rfl⟩ := ha; exact ⟨Real.tanh x, rfl⟩

/-- A finite sum of real numbers is a real number. -/
theorem IsReal.sum {ι : Type} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- A 32-bit float pattern whose exponent field is not all ones denotes a real number. -/
theorem isReal_ofBits_f32 (b : BitVec 32) (h : ¬ (b.extractLsb' 23 8).toNat = 2 ^ 8 - 1) : IsReal (Ideal.ofBits .f32 b) := by
  show IsReal (Ideal.ieee 8 23 b)
  unfold Ideal.ieee
  dsimp only
  rw [if_neg h]
  split <;> exact ⟨_, rfl⟩

/-- The tanh form of GELU, `h · (½ · (1 + tanh (c₂ · (h + c₁ · h³))))`, with the four constants the float
    patterns both programs carry (one half, one, 0.7978846 and 0.044715). -/
def gelu (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

theorem IsReal.gelu {h : EReal} (hh : IsReal h) : IsReal (gelu h) := by
  unfold Cert.MoE.gelu
  have c0 : IsReal (Ideal.ofBits .f32 0x3F000000#32) := isReal_ofBits_f32 _ (by decide)
  have c1 : IsReal (Ideal.ofBits .f32 0x3F800000#32) := isReal_ofBits_f32 _ (by decide)
  have c2 : IsReal (Ideal.ofBits .f32 0x3F4C422A#32) := isReal_ofBits_f32 _ (by decide)
  have c3 : IsReal (Ideal.ofBits .f32 0x3D372713#32) := isReal_ofBits_f32 _ (by decide)
  exact hh.mul (c0.mul (c1.add (c2.mul (hh.add (c3.mul (hh.mul (hh.mul hh))))).tanh))

/-- A real factor distributes over a finite sum of real numbers. -/
theorem sum_mul_of_isReal {ι : Type} (s : Finset ι) (f : ι → EReal) (w : EReal) (hf : ∀ i ∈ s, IsReal (f i))
    (hw : IsReal w) : (∑ i ∈ s, f i) * w = ∑ i ∈ s, f i * w := by
  classical
  induction s using Finset.induction_on with
  | empty => rw [Finset.sum_empty, Finset.sum_empty, zero_mul]
  | insert a s ha ih =>
    rw [Finset.sum_insert ha, Finset.sum_insert ha, ← ih (fun i hi => hf i (Finset.mem_insert_of_mem hi))]
    obtain ⟨x, hx⟩ := hf a (Finset.mem_insert_self a s)
    obtain ⟨y, hy⟩ := IsReal.sum s f (fun i hi => hf i (Finset.mem_insert_of_mem hi))
    obtain ⟨z, rfl⟩ := hw
    rw [hx, hy, ← EReal.coe_add, ← EReal.coe_mul, ← EReal.coe_mul, ← EReal.coe_mul, ← EReal.coe_add, add_mul]

/-- Position `j` of chunk `c` of the hidden axis: `1024 · c + j`. -/
def chunk (c : Fin 4) (j : Fin 1024) : Fin 4096 := ⟨j.val + 1024 * c.val, by have := c.isLt; have := j.isLt; omega⟩

/-- A sum over the hidden axis is the sum over the four chunks of the sums over each chunk. -/
theorem sum_chunks (g : Fin 4096 → EReal) : ∑ f, g f = ∑ c : Fin 4, ∑ j : Fin 1024, g (chunk c j) := by
  rw [← Fintype.sum_prod_type' (f := fun c j => g (chunk c j))]
  exact (Equiv.sum_comp (finProdFinEquiv (m := 4) (n := 1024)) g).symm

/-- A sum over the 32 steps of one token block is the sum over experts and chunks, step `4 e + c` being chunk `c` of
    expert `e`. -/
theorem sum_steps (M : ℕ → EReal) : ∑ s ∈ Finset.range 32, M s = ∑ e : Fin 8, ∑ c : Fin 4, M (c.val + 4 * e.val) := by
  rw [Finset.sum_range, ← Fintype.sum_prod_type' (f := fun (e : Fin 8) (c : Fin 4) => M (c.val + 4 * e.val))]
  exact (Equiv.sum_comp (finProdFinEquiv (m := 8) (n := 4)) (fun s : Fin 32 => M s.val)).symm

/-- THE JOIN.  The chunked accumulation `Z + ∑ₛ M s` over the 32 steps, where step `4 e + c` adds chunk `c` of
    expert `e` times that expert's weight, is the expert-by-expert accumulation from `Z`. -/
theorem join (Z : EReal) (M : ℕ → EReal) (g : Fin 8 → Fin 4096 → EReal) (w : Fin 8 → EReal)
    (hM : ∀ (e : Fin 8) (c : Fin 4), M (c.val + 4 * e.val) = (∑ j : Fin 1024, g e (chunk c j)) * w e)
    (hg : ∀ e f, IsReal (g e f)) (hw : ∀ e, IsReal (w e)) :
    Z + ∑ s ∈ Finset.range 32, M s
      = Z + (∑ f, g 0 f) * w 0 + (∑ f, g 1 f) * w 1 + (∑ f, g 2 f) * w 2 + (∑ f, g 3 f) * w 3
          + (∑ f, g 4 f) * w 4 + (∑ f, g 5 f) * w 5 + (∑ f, g 6 f) * w 6 + (∑ f, g 7 f) * w 7 := by
  have hE : ∀ e : Fin 8, (∑ f, g e f) * w e = ∑ c : Fin 4, M (c.val + 4 * e.val) := fun e => by
    rw [sum_chunks, sum_mul_of_isReal _ _ _ (fun c _ => IsReal.sum _ _ fun j _ => hg e _) (hw e)]
    exact Finset.sum_congr rfl fun c _ => (hM e c).symm
  rw [sum_steps, Fin.sum_univ_eight, hE 0, hE 1, hE 2, hE 3, hE 4, hE 5, hE 6, hE 7]
  simp only [add_assoc]

end Cert.MoE

end
-- ==== Proof.Spec.lean ====
/-
  The function both programs compute, entry by entry.

  For a token `t` and an output column `d`:
      moe t d = 0 + ∑ₑ (∑_f gelu (∑ₘ x t m · w1 e m f) · w2 e f d) · wₑ t ,        e = 0 … 7 added in this order,
  where `wₑ t = 0 + ∑ₖ (if sel t k = e then rw t k else 0)` is the routing weight of token `t` for expert `e`, summed over
  the two routing slots.  The arrays are functions on their index sets over the literal shapes.
-/
import proofs.«104996_j46832323395779_2_alg».proof.Proof.Algebra
import Idealize.ShloMosaic.Lib.ValueIdx

noncomputable section

namespace Cert.MoE

open Idealize.ShloMosaic Idealize.ShloMosaic.ValueIdx

/-- The hidden activation of token `t` at hidden position `f` of expert `e`, before the GELU. -/
def hid (x : (⟨2, ![8192, 1024]⟩ : Shape).Idx → EReal) (w1 : (⟨3, ![8, 1024, 4096]⟩ : Shape).Idx → EReal)
    (e : Fin 8) (t : Fin 8192) (f : Fin 4096) : EReal :=
  ∑ m : Fin 1024, x (ix2 t m) * w1 (ix3 e m f)

/-- One term of expert `e`'s feed-forward output for token `t` and column `d`. -/
def term (x : (⟨2, ![8192, 1024]⟩ : Shape).Idx → EReal) (w1 : (⟨3, ![8, 1024, 4096]⟩ : Shape).Idx → EReal)
    (w2 : (⟨3, ![8, 4096, 1024]⟩ : Shape).Idx → EReal) (e : Fin 8) (t : Fin 8192) (d : Fin 1024) (f : Fin 4096) : EReal :=
  gelu (hid x w1 e t f) * w2 (ix3 e f d)

/-- The routing weight of token `t` for the expert whose number is the word `b`. -/
def weight (sel : (⟨2, ![8192, 2]⟩ : Shape).Idx → BitVec 32) (rw : (⟨2, ![8192, 2]⟩ : Shape).Idx → EReal)
    (t : Fin 8192) (b : BitVec 32) : EReal :=
  0 + ∑ k : Fin 2, if sel (ix2 t k) = b then rw (ix2 t k) else 0

/-- The mixture-of-experts output. -/
def moe (x : (⟨2, ![8192, 1024]⟩ : Shape).Idx → EReal) (sel : (⟨2, ![8192, 2]⟩ : Shape).Idx → BitVec 32)
    (rw : (⟨2, ![8192, 2]⟩ : Shape).Idx → EReal) (w1 : (⟨3, ![8, 1024, 4096]⟩ : Shape).Idx → EReal)
    (w2 : (⟨3, ![8, 4096, 1024]⟩ : Shape).Idx → EReal) : (⟨2, ![8192, 1024]⟩ : Shape).Idx → EReal := fun i =>
  0 + (∑ f, term x w1 w2 0 (i 0) (i 1) f) * weight sel rw (i 0) 0#32
    + (∑ f, term x w1 w2 1 (i 0) (i 1) f) * weight sel rw (i 0) 1#32
    + (∑ f, term x w1 w2 2 (i 0) (i 1) f) * weight sel rw (i 0) 2#32
    + (∑ f, term x w1 w2 3 (i 0) (i 1) f) * weight sel rw (i 0) 3#32
    + (∑ f, term x w1 w2 4 (i 0) (i 1) f) * weight sel rw (i 0) 4#32
    + (∑ f, term x w1 w2 5 (i 0) (i 1) f) * weight sel rw (i 0) 5#32
    + (∑ f, term x w1 w2 6 (i 0) (i 1) f) * weight sel rw (i 0) 6#32
    + (∑ f, term x w1 w2 7 (i 0) (i 1) f) * weight sel rw (i 0) 7#32

/-- With real inputs every term of the feed-forward output is a real number … -/
theorem isReal_term {x : (⟨2, ![8192, 1024]⟩ : Shape).Idx → EReal} {w1 : (⟨3, ![8, 1024, 4096]⟩ : Shape).Idx → EReal}
    {w2 : (⟨3, ![8, 4096, 1024]⟩ : Shape).Idx → EReal} (hx : ∀ i, IsReal (x i)) (h1 : ∀ i, IsReal (w1 i)) (h2 : ∀ i, IsReal (w2 i))
    (e : Fin 8) (t : Fin 8192) (d : Fin 1024) (f : Fin 4096) : IsReal (term x w1 w2 e t d f) :=
  (IsReal.gelu (IsReal.sum _ _ fun m _ => (hx _).mul (h1 _))).mul (h2 _)

/-- … and so is every routing weight. -/
theorem isReal_weight {sel : (⟨2, ![8192, 2]⟩ : Shape).Idx → BitVec 32} {rw : (⟨2, ![8192, 2]⟩ : Shape).Idx → EReal}
    (hr : ∀ i, IsReal (rw i)) (t : Fin 8192) (b : BitVec 32) : IsReal (weight sel rw t b) :=
  IsReal.zero.add (IsReal.sum _ _ fun k _ => by
    show IsReal (if sel (ix2 t k) = b then rw (ix2 t k) else 0)
    split
    · exact hr _
    · exact IsReal.zero)

end Cert.MoE

end
-- ==== Proof.LibRowOps.lean ====
/-
  Row-wise vector operations read at an index, at the ideal values: general lemmas, stated over arbitrary
  extents, for kernels that reduce along the last axis and broadcast the result back (a mean, a softmax).

  * the keepdims layout forms: a vector [a] viewed as a column [a, 1]; a column [a, 1] broadcast along the rows
    to [a, b]; a matrix [a, b] viewed as [a, b, 1]; and [a, b, 1] broadcast along the last axis to [a, b, c];
  * a sum and a maximum along the last axis of a matrix, and a sum along the last axis of a rank-3 array, as a
    `Fin`-indexed sum (fold) over that axis's coordinate;
  * the host's maximum-reduce along the last axis of a matrix, as the same fold;
  * a matrix product with the plain dimension numbers (rows × contraction by contraction × columns) into a
    zero accumulator, as the sum over the contraction coordinate.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The keepdims layout forms -/

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix `[a, b]` cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- `[a, b, 1]` broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-! ## Reductions along the last axis -/

/-- A reduced row index `i` of a matrix with column `k` put back is `(i, k)`. -/
theorem lift_last2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A reduced index `(i, j)` of a rank-3 array with the last coordinate `k` put back is `(i, j, k)`. -/
theorem lift_last3 {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

/-- The sum along the rows of a matrix, at row `i`: the sum over the columns of the entries of that row. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_last2 h i k))

/-- The sum along the last axis of a rank-3 array, at `(i, j)`. -/
theorem lastSum3_apply {a b c : ℕ} {φ : FTy} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) :=
  (Ideal.multiReduction_add_single src acc h hφ hacc (ix2 i j)).trans
    (Finset.sum_congr rfl fun k _ => congrArg src (lift_last3 h i j k))

/-- The maximum along the rows of a matrix, at row `i`: the fold of `max` from the accumulator's value over the
    entries of that row. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_last2 h i k)))

/-- The host's maximum-reduce along the rows of a matrix, at row `i`: the same fold, from the initial value. -/
theorem hostRowMax_apply {a b : ℕ} {φ : FTy} {u : Shape} (x : FVec Ideal ⟨2, ![a, b]⟩ φ) (init : u.Idx → Ideal φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (i : Fin a) :
    Host.reduce FloatOps.maximumf x init h' hu (ix1 i)
      = (Finset.univ : Finset (Fin b)).fold max (init (Shape.Idx.first hu)) (fun k => x (ix2 i k)) :=
  (Host.reduce_eq_fold_single FloatOps.maximumf x init h' h hu (ix1 i)).trans
    (congrArg (fun f => Finset.fold max (init (Shape.Idx.first hu)) f (Finset.univ : Finset (Fin b)))
      (funext fun k => congrArg x (lift_last2 h i k)))

end Cert.RowOps

end
-- ==== Proof.LibPlainDot.lean ====
/-
  A matrix product with the plain dimension numbers — rows × contraction by contraction × columns, no batch
  axis — into a zero accumulator, read at the ideal values at an entry `(i, j)`: the sum over the contraction
  coordinate `q` of `lhs (i, q) · rhs (q, j)`.  General in the three extents and in the dimension-number record,
  which is only asked to list the axes as the plain product does.
-/
import Idealize.ShloMosaic.Lib.ValueIdx
import Idealize.ShloMosaic.PureOps.Ideal.Laws

noncomputable section

namespace Cert.PlainDot

open Idealize.ShloMosaic Idealize.ShloMosaic.ValueIdx

/-- The entry `(i, j)` of `lhs · rhs` accumulated into zeros is `∑ q, lhs (i, q) · rhs (q, j)`. -/
theorem matmul_zero_apply {M K N : ℕ} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (i : Fin M) (j : Fin N) :
    matmul d prec l r (constant ⟨2, ![M, N]⟩ .f32 0x00000000#32) (ix2 i j) = ∑ q : Fin K, l (ix2 i q) * r (ix2 q j) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  -- the two operand indices at `(i, j)` and a contraction position, coordinate by coordinate
  have l0 : ∀ k, (d.lhsIdx (ix2 i j) k (0 : Fin 2)).val = i.val := fun k => by
    subst hd
    unfold DotDims.lhsIdx
    rw [dif_neg (show ¬ (0 : Fin 2) ∈ ([] : List (Fin 2)) from List.not_mem_nil),
      dif_pos (show (0 : Fin 2) ∈ [(0 : Fin 2)] from List.mem_singleton.mpr rfl)]
    rfl
  have r1 : ∀ k, (d.rhsIdx (ix2 i j) k (1 : Fin 2)).val = j.val := fun k => by
    subst hd
    unfold DotDims.rhsIdx
    rw [dif_neg (show ¬ (1 : Fin 2) ∈ ([] : List (Fin 2)) from List.not_mem_nil),
      dif_pos (show (1 : Fin 2) ∈ [(1 : Fin 2)] from List.mem_singleton.mpr rfl)]
    rfl
  simp only [matmul]
  rw [Ideal.matmul_constant_zero_apply, ← Equiv.sum_comp (contrEquiv1 d K hr hs).symm]
  refine Finset.sum_congr rfl fun q _ => ?_
  have hq := contrEquiv1_symm_val d K hr hs q
  have el : d.lhsIdx (ix2 i j) ((contrEquiv1 d K hr hs).symm q) = ix2 i q := funext fun a => Fin.ext (by
    match a with
    | ⟨0, _⟩ => exact l0 _
    | ⟨1, _⟩ => exact (d.lhsIdx_val_of_single hlc _ _).trans hq)
  have er : d.rhsIdx (ix2 i j) ((contrEquiv1 d K hr hs).symm q) = ix2 q j := funext fun a => Fin.ext (by
    match a with
    | ⟨0, _⟩ => exact (d.rhsIdx_val_of_single hrc _ _).trans hq
    | ⟨1, _⟩ => exact r1 _)
  rw [el, er]

end Cert.PlainDot

end
-- ==== Proof.KernelPoint.lean ====
/-
  What one grid point of the kernel computes, read entry by entry at the ideal values.

  At a grid point the body holds a block `x` of 512 tokens, the chunk `a` (1024 × 1024) of one expert's first weight
  matrix, the matching chunk `b` of its second weight matrix and the 512 × 8 block `we` of combine weights.  It forms
      P r d = ∑ⱼ gelu (∑_q x r q · a q j) · b j d            (two matrix products with the GELU between them),
  picks the weight column of the expert the point belongs to by masking the eight columns and summing the row, and adds
  `P r d` times that weight to the accumulator.
-/
import proofs.«104996_j46832323395779_2_alg».proof.Proof.Gen.KernelIdeal.Skeleton
import proofs.«104996_j46832323395779_2_alg».proof.Proof.Spec
import proofs.«104996_j46832323395779_2_alg».proof.Proof.LibRowOps
import proofs.«104996_j46832323395779_2_alg».proof.Proof.LibPlainDot
import Idealize.ShloMosaic.Lib.ValueIdx
import Idealize.ShloMosaic.Lib.Pipeline.Value

noncomputable section

namespace Cert.KernelIdeal.Point

open Cert.KernelIdeal Cert.KernelIdeal.Gen Idealize.ShloMosaic Idealize.ShloMosaic.ValueIdx Cert.MoE

/-- A chunk of a weight array, held as a block with a leading unit axis, viewed as a matrix: entry `(p, q)` is the
    block's entry `(0, p, q)`. -/
theorem chunk_as_matrix (v : S1x1024x1024.Idx → EReal) (p q : Fin 1024) :
    shapeCast S1024x1024 v Facts₀.shapeCasts_S1x1024x1024_S1024x1024 (ix2 p q) = v (ix3 (0 : Fin 1) p q) := by
  refine (shapeCast_dropUnit_apply ![1024, 1024] v Facts₀.shapeCasts_S1x1024x1024_S1024x1024 (ix2 p q)).trans ?_
  refine congrArg v (funext fun a => ?_)
  match a with
  | ⟨0, _⟩ => rfl
  | ⟨1, _⟩ => rfl
  | ⟨2, _⟩ => rfl

/-- The first matrix product: the hidden activation of token `r` at position `j` of the chunk. -/
theorem hidden_apply (x : S512x1024.Idx → EReal) (a : S1x1024x1024.Idx → EReal) (r : Fin 512) (j : Fin 1024) :
    (matmul (F := Ideal) (φ₁ := .bf16) (φ₂ := .bf16) dot_S512x1024_S1024x1024_S512x1024_1_0_0_1_n_n none
        (shapeCast S512x1024 x Facts₀.shapeCasts_S512x1024_S512x1024)
        (shapeCast S1024x1024 a Facts₀.shapeCasts_S1x1024x1024_S1024x1024) (constant S512x1024 .f32 0x00000000#32) (ix2 r j) : EReal)
      = ∑ q : Fin 1024, x (ix2 r q) * a (ix3 (0 : Fin 1) q j) := by
  refine (Cert.PlainDot.matmul_zero_apply dot_S512x1024_S1024x1024_S512x1024_1_0_0_1_n_n rfl rfl rfl rfl rfl rfl none _ _ r j).trans ?_
  refine Finset.sum_congr rfl fun q _ => ?_
  rw [shapeCast_self, chunk_as_matrix]

/-- The feed-forward product of the point: `P r d = ∑ⱼ gelu (∑_q x r q · a q j) · b j d`. -/
theorem ffn_apply (x : S512x1024.Idx → EReal) (a b : S1x1024x1024.Idx → EReal) (r : Fin 512) (d : Fin 1024) :
    (k0_pay3 (F := Ideal) x a b (ix2 r d) : EReal)
      = ∑ j : Fin 1024, gelu (∑ q : Fin 1024, x (ix2 r q) * a (ix3 (0 : Fin 1) q j)) * b (ix3 (0 : Fin 1) j d) := by
  unfold k0_pay3
  refine (Cert.PlainDot.matmul_zero_apply dot_S512x1024_S1024x1024_S512x1024_1_0_0_1_n_n rfl rfl rfl rfl rfl rfl none _ _ r d).trans ?_
  refine Finset.sum_congr rfl fun j _ => ?_
  refine congrArg₂ (· * ·) ?_ (chunk_as_matrix b j d)
  exact congrArg gelu (hidden_apply x a r j)

/-- Two words below eight are equal exactly when the numbers are. -/
theorem ofNat32_inj {a b : ℕ} (ha : a < 8) (hb : b < 8) : BitVec.ofNat 32 a = BitVec.ofNat 32 b ↔ a = b := by
  constructor
  · intro h
    have h' := congrArg BitVec.toNat h
    rw [BitVec.toNat_ofNat, BitVec.toNat_ofNat, Nat.mod_eq_of_lt (Nat.lt_of_lt_of_le ha (by norm_num)),
      Nat.mod_eq_of_lt (Nat.lt_of_lt_of_le hb (by norm_num))] at h'
    exact h'
  · rintro rfl; rfl

/-- The combine weight of the point's expert: masking the eight columns of the weight block by "column = expert" and
    summing each row leaves the expert's own column (the other seven terms are zero). -/
theorem weight_apply (i : grid0.Coords) (e : Fin 8) (he : (i 1).val = e.val) (we : S512x8.Idx → EReal) (r : Fin 512) :
    (k0_pay4 (F := Ideal) i we (ix1 r) : EReal) = we (ix2 r e) := by
  unfold k0_pay4
  refine (Cert.RowOps.rowSum_apply _ _ Facts₀.reduces_S512x8_S512 _ _ r).trans ?_
  have hk : ∀ k : Fin 8,
      select (cmpi .eq (iota .tc S512x8 32 [1] Facts₀.iota_S512x8_d1_w32) (broadcast S512x8 (BitVec.ofNat 32 (i 1).val)))
        (shapeCast S512x8 we Facts₀.shapeCasts_S512x8_S512x8) (broadcast S512x8 (Scalar.ofBits (F := Ideal) .f32 0x00000000#32)) (ix2 r k)
        = if k = e then we (ix2 r k) else 0 := fun k => by
    rw [shapeCast_self]
    show Scalar.select (IntOp.cmpi .eq (iota .tc S512x8 32 [1] Facts₀.iota_S512x8_d1_w32 (ix2 r k)) (BitVec.ofNat 32 (i 1).val))
      (we (ix2 r k)) (Ideal.ofBits .f32 0x00000000#32) = _
    rw [iota_single_apply, Ideal.ofBits_zero_f32, he]
    unfold Scalar.select
    exact if_congr (IntOp.cmpi_eq.trans ((ofNat32_inj k.isLt e.isLt).trans Fin.val_inj)) rfl rfl
  rw [Finset.sum_congr rfl fun k _ => hk k, Finset.sum_ite_eq' Finset.univ e, if_pos (Finset.mem_univ e)]

/-- The accumulation: the new accumulator entry is the old one plus `P r d` times the row's weight. -/
theorem accumulate_apply (P : S512x1024.Idx → EReal) (wcol : S512.Idx → EReal) (acc : S512x1024.Idx → EReal)
    (r : Fin 512) (d : Fin 1024) :
    (k0_pay1 (F := Ideal) P wcol acc (ix2 r d) : EReal) = acc (ix2 r d) + P (ix2 r d) * wcol (ix1 r) := by
  unfold k0_pay1
  rw [shapeCast_self]
  show acc (ix2 r d) + P (ix2 r d) * broadcastTo S512x1024 (shapeCast S512x1 wcol Facts₀.shapeCasts_S512_S512x1)
    Facts₀.broadcasts_S512x1_S512x1024 (ix2 r d) = _
  rw [Cert.RowOps.broadcastTo_a1_ab_apply, Cert.RowOps.shapeCast_a_a1_apply]

/-- The block the first point of a token block stores before accumulating is zero everywhere. -/
theorem reset_apply (j : S512x1024.Idx) : (k0_pay2 (F := Ideal) j : EReal) = 0 := by
  unfold k0_pay2
  rw [shapeCast_self]
  exact Ideal.ofBits_zero_f32

/-- ONE GRID POINT.  When the point's blocks are the rows `row r` of the token array `X`, chunk `c` of expert `e`'s slices of the
    weight arrays `W1` and `W2`, and the combine weights of those rows, the body leaves in the accumulator, at `(r, d)`, what it
    held plus the chunk's part of expert `e`'s feed-forward output for token `row r` times that token's routing weight. -/
theorem point_apply (i : grid0.Coords) (e : Fin 8) (he : (i 1).val = e.val)
    (x0 : S512x1024.Idx → EReal) (x1 x2 : S1x1024x1024.Idx → EReal) (x3 : S512x8.Idx → EReal) (acc : S512x1024.Idx → EReal)
    (X : (⟨2, ![8192, 1024]⟩ : Shape).Idx → EReal) (W1 : (⟨3, ![8, 1024, 4096]⟩ : Shape).Idx → EReal)
    (W2 : (⟨3, ![8, 4096, 1024]⟩ : Shape).Idx → EReal) (SEL : (⟨2, ![8192, 2]⟩ : Shape).Idx → BitVec 32)
    (RW : (⟨2, ![8192, 2]⟩ : Shape).Idx → EReal) (row : Fin 512 → Fin 8192) (c : Fin 4)
    (h0 : ∀ r q, x0 (ix2 r q) = X (ix2 (row r) q))
    (h1 : ∀ q j, x1 (ix3 (0 : Fin 1) q j) = W1 (ix3 e q (chunk c j)))
    (h2 : ∀ j d, x2 (ix3 (0 : Fin 1) j d) = W2 (ix3 e (chunk c j) d))
    (h3 : ∀ r, x3 (ix2 r e) = weight SEL RW (row r) (BitVec.ofNat 32 e.val))
    (r : Fin 512) (d : Fin 1024) :
    (k0_pay1 (F := Ideal) (k0_pay3 (F := Ideal) x0 x1 x2) (k0_pay4 (F := Ideal) i x3) acc (ix2 r d) : EReal)
      = acc (ix2 r d) + (∑ j : Fin 1024, term X W1 W2 e (row r) d (chunk c j)) * weight SEL RW (row r) (BitVec.ofNat 32 e.val) := by
  refine (accumulate_apply (k0_pay3 (F := Ideal) x0 x1 x2) (k0_pay4 (F := Ideal) i x3) acc r d).trans ?_
  refine congrArg (acc (ix2 r d) + ·) (congrArg₂ (· * ·) ?_ ((weight_apply i e he x3 r).trans (h3 r)))
  refine (ffn_apply x0 x1 x2 r d).trans (Finset.sum_congr rfl fun j _ => ?_)
  unfold term hid
  refine congrArg₂ (· * ·) (congrArg gelu (Finset.sum_congr rfl fun q _ => ?_)) (h2 j d)
  rw [h0, h1]

end Cert.KernelIdeal.Point

end
-- ==== Proof.KernelPieces.lean ====
/-
  What each of the three control cases of the kernel body leaves behind, as values.

  The body runs in one of three cases, by the point's position in its token block: the first point (it zeroes the
  accumulator first), a middle point, and the last point (it also copies the accumulator to the output block).  In every
  case the accumulator ends at  old + P · w  (with old = 0 at the first point), where `P` is the point's feed-forward
  product and `w` its weight column; at the last point the output block receives that same value.
-/
import proofs.«104996_j46832323395779_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem scratch_B (c : Dev nD) (i : grid0.Coords) (arg3 : Memref sig .tc .vmem S512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x1024 .bf16) (x1 : Vec F S1x1024x1024 .bf16) (x2 : Vec F S1x1024x1024 .bf16) (x3 : Vec F S512x8 .f32) (xs0 : Vec F S512x1024 .f32) :
    sout0_B_0 c i arg3 harg3 arg4 harg4 arg5 harg5 arg6 harg6 arg7 harg7 arg8 harg8 hc0 hc1 x0 x1 x2 x3 xs0
      = k0_pay1 (k0_pay3 x0 x1 x2) (k0_pay4 i x3) xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread,
    View.ld_unit_zero (S := S512x1024) hz2, View.ld_unit_zero (S := S1x1024x1024) hz3, View.ld_unit_zero (S := S512x8) hz2]

theorem scratch_A (c : Dev nD) (i : grid0.Coords) (arg3 : Memref sig .tc .vmem S512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x1024 .bf16) (x1 : Vec F S1x1024x1024 .bf16) (x2 : Vec F S1x1024x1024 .bf16) (x3 : Vec F S512x8 .f32) :
    sout0_A_0 c i arg3 harg3 arg4 harg4 arg5 harg5 arg6 harg6 arg7 harg7 arg8 harg8 hc0 hc1 x0 x1 x2 x3
      = k0_pay1 (k0_pay3 x0 x1 x2) (k0_pay4 i x3) k0_pay2 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz2]
  simp only [View.readAt_eq_ld, harg3.read_unread, harg4.read_unread, harg5.read_unread, harg6.read_unread,
    View.ld_unit_zero (S := S512x1024) hz2, View.ld_unit_zero (S := S1x1024x1024) hz3, View.ld_unit_zero (S := S512x8) hz2,
    View.readCov_unit_zero (S := S512x1024) _ hz2]

theorem out_C (c : Dev nD) (i : grid0.Coords) (arg3 : Memref sig .tc .vmem S512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .bf16) (x1 : Vec F S1x1024x1024 .bf16) (x2 : Vec F S1x1024x1024 .bf16) (x3 : Vec F S512x8 .f32) (xs0 : Vec F S512x1024 .f32) :
    out0_C_4 c i arg3 harg3 arg4 harg4 arg5 harg5 arg6 harg6 arg7 harg7 arg8 harg8 hc0 hc1 x0 x1 x2 x3 xs0
      = k0_pay1 (k0_pay3 x0 x1 x2) (k0_pay4 i x3) xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S512x1024) hz2, View.ld_unit_zero (S := S1x1024x1024) hz3, View.ld_unit_zero (S := S512x8) hz2,
    View.readCov_unit_zero (S := S512x1024) _ hz2]

theorem scratch_C (c : Dev nD) (i : grid0.Coords) (arg3 : Memref sig .tc .vmem S512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S512x8 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .bf16) (x1 : Vec F S1x1024x1024 .bf16) (x2 : Vec F S1x1024x1024 .bf16) (x3 : Vec F S512x8 .f32) (xs0 : Vec F S512x1024 .f32) :
    sout0_C_0 c i arg3 harg3 arg4 harg4 arg5 harg5 arg6 harg6 arg7 harg7 arg8 harg8 hc0 hc1 x0 x1 x2 x3 xs0
      = k0_pay1 (k0_pay3 x0 x1 x2) (k0_pay4 i x3) xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S512x1024) hz2, View.ld_unit_zero (S := S1x1024x1024) hz3, View.ld_unit_zero (S := S512x8) hz2]

end Cert.KernelIdeal.Pieces

end
-- ==== Proof.KernelBlocks.lean ====
/-
  What the kernel's windows hold at a grid point, in terms of the program's arguments.

  The grid has 16 × 8 × 4 points: point `n` works on token block `n / 32`, expert `(n / 4) % 8` and chunk `n % 4` of the
  hidden axis.  Its blocks are rows `512 · (n / 32) …` of the token array and of the combine-weight array, and the chunk
  `1024 · (n % 4) …` of the expert's slice of the two weight arrays.  The arrays the region finds are the arguments
  themselves (the change of float format before the call is the identity on the ideal values), except the combine-weight
  array, which the host computes before the call: its entry `(t, e)` is the routing weight of token `t` for expert `e`.
-/
import proofs.«104996_j46832323395779_2_alg».proof.Proof.Gen.KernelIdeal.Value
import proofs.«104996_j46832323395779_2_alg».proof.Proof.Spec
import Idealize.ShloMosaic.Lib.StableHlo.Run
import Idealize.ShloMosaic.Lib.Tactic

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo Cert.MoE

variable (m : (ℓ : Loc nD τ sig) → Buf (Elt Ideal) ℓ)

/-! ## The coordinates of a grid point -/

/-- The token row of point `n`'s block at position `r`. -/
def rowN (n : ℕ) (r : Fin 512) : Fin 8192 := ⟨512 * (n / 32 % 16) + r.val, by have := r.isLt; omega⟩
/-- The expert of point `n`. -/
def expertN (n : ℕ) : Fin 8 := ⟨n / 4 % 8, by omega⟩
/-- The chunk of the hidden axis of point `n`. -/
def chunkN (n : ℕ) : Fin 4 := ⟨n % 4, by omega⟩

/-- The printed index maps, decided once over the grid. -/
theorem idx_facts : ∀ t : Fin cfg0.N,
    win0_0.index t (0 : Fin 2) = t.val / 32 ∧ win0_0.index t (1 : Fin 2) = 0
    ∧ win0_1.index t (0 : Fin 3) = t.val / 4 % 8 ∧ win0_1.index t (1 : Fin 3) = 0 ∧ win0_1.index t (2 : Fin 3) = t.val % 4
    ∧ win0_2.index t (0 : Fin 3) = t.val / 4 % 8 ∧ win0_2.index t (1 : Fin 3) = t.val % 4 ∧ win0_2.index t (2 : Fin 3) = 0
    ∧ win0_3.index t (0 : Fin 2) = t.val / 32 ∧ win0_3.index t (1 : Fin 2) = 0
    ∧ win0_4.index t (0 : Fin 2) = t.val / 32 ∧ win0_4.index t (1 : Fin 2) = 0
    ∧ (grid0.coords t 1).val = t.val / 4 % 8 :=
  (by decide +kernel : ∀ t : Fin grid0.N, _)

/-! ## The arrays the region finds -/

/-- The token array as the region finds it is the first argument. -/
theorem V_x (c : Dev nD) : (V m c main_v9 : S8192x1024.Idx → EReal) = m ((c : Thread nD τ).loc main_arg0) := by
  dsimp only [Gen.V]
  simp only [Gen.hostOps0, Gen.hostOps0_1, Gen.hostOps0_2, List.flatten_cons, List.flatten_nil, List.append_nil,
    List.cons_append, List.nil_append]
  after_results
  rfl

/-- The first weight array as the region finds it is the fourth argument. -/
theorem V_w1 (c : Dev nD) : (V m c main_v10 : S8x1024x4096.Idx → EReal) = m ((c : Thread nD τ).loc main_arg3) := by
  dsimp only [Gen.V]
  simp only [Gen.hostOps0, Gen.hostOps0_1, Gen.hostOps0_2, List.flatten_cons, List.flatten_nil, List.append_nil,
    List.cons_append, List.nil_append]
  after_results
  rfl

/-- The second weight array as the region finds it is the fifth argument. -/
theorem V_w2 (c : Dev nD) : (V m c main_v11 : S8x4096x1024.Idx → EReal) = m ((c : Thread nD τ).loc main_arg4) := by
  dsimp only [Gen.V]
  simp only [Gen.hostOps0, Gen.hostOps0_1, Gen.hostOps0_2, List.flatten_cons, List.flatten_nil, List.append_nil,
    List.cons_append, List.nil_append]
  after_results
  rfl

/-- The combine-weight array as the host computes it before the call: the routing weights where the routing slot's expert
    number equals the column, zero elsewhere, summed over the two slots. -/
theorem V_we (c : Dev nD) : (V m c main_v8 : S8192x8.Idx → EReal) =
    Host.reduceAdd (F := Ideal)
      (select
        (cmpi .eq
          (broadcastInDim S8192x2x8 ![0, 1, 2] Facts₀.bcast_S8192x2x1_S8192x2x8_0_1_2
            (broadcastInDim S8192x2x1 ![0, 1] Facts₀.bcast_S8192x2_S8192x2x1_0_1 (m ((c : Thread nD τ).loc main_arg1))))
          (broadcastInDim S8192x2x8 ![0, 1, 2] Facts₀.bcast_S1x1x8_S8192x2x8_0_1_2
            (broadcastInDim S1x1x8 ![2] Facts₀.bcast_S8_S1x1x8_2 (iotaInDim S8 32 0))))
        (broadcastInDim S8192x2x8 ![0, 1, 2] Facts₀.bcast_S8192x2x1_S8192x2x8_0_1_2
          (broadcastInDim S8192x2x1 ![0, 1] Facts₀.bcast_S8192x2_S8192x2x1_0_1 (m ((c : Thread nD τ).loc main_arg2))))
        (broadcastInDim S8192x2x8 ![] Facts₀.bcast_S_S8192x2x8 (constant (F := Ideal) S_ .f32 0x00000000#32)))
      (constant (F := Ideal) S_ .f32 0x00000000#32) Facts₀.reducesTo_S8192x2x8_S8192x8_d1 Facts₀.h_S_ := by
  dsimp only [Gen.V]
  simp only [Gen.hostOps0, Gen.hostOps0_1, Gen.hostOps0_2, List.flatten_cons, List.flatten_nil, List.append_nil,
    List.cons_append, List.nil_append]
  after_results
  rfl

/-- An array [8192, 2] viewed as [8192, 2, 1] and repeated along a last axis of length 8 reads, at `(t, k, e)`, its entry `(t, k)`. -/
theorem slot_apply {α : Type} (y : S8192x2.Idx → α) (t : Fin 8192) (k : Fin 2) (e : Fin 8) :
    broadcastInDim S8192x2x8 ![0, 1, 2] Facts₀.bcast_S8192x2x1_S8192x2x8_0_1_2
      (broadcastInDim S8192x2x1 ![0, 1] Facts₀.bcast_S8192x2_S8192x2x1_0_1 y) (ix3 t k e) = y (ix2 t k) := by
  refine (broadcastInDim_apply _ Facts₀.bcast_S8192x2x1_S8192x2x8_0_1_2 _ (ix3 t k e) (ix3 t k (0 : Fin 1)) (fun a => ?_)).trans
    (broadcastInDim_apply _ Facts₀.bcast_S8192x2_S8192x2x1_0_1 y (ix3 t k (0 : Fin 1)) (ix2 t k) (fun a => ?_))
  · match a with
    | ⟨0, _⟩ => show t.val = if (8192 : Nat) = 1 then 0 else t.val; rw [if_neg (by decide)]
    | ⟨1, _⟩ => show k.val = if (2 : Nat) = 1 then 0 else k.val; rw [if_neg (by decide)]
    | ⟨2, _⟩ => show 0 = if (1 : Nat) = 1 then 0 else e.val; rw [if_pos rfl]
  · match a with
    | ⟨0, _⟩ => show t.val = if (8192 : Nat) = 1 then 0 else t.val; rw [if_neg (by decide)]
    | ⟨1, _⟩ => show k.val = if (2 : Nat) = 1 then 0 else k.val; rw [if_neg (by decide)]

/-- The expert numbers 0 … 7 laid along the last axis read, at `(t, k, e)`, the word of `e`. -/
theorem column_apply (t : Fin 8192) (k : Fin 2) (e : Fin 8) :
    broadcastInDim S8192x2x8 ![0, 1, 2] Facts₀.bcast_S1x1x8_S8192x2x8_0_1_2
      (broadcastInDim S1x1x8 ![2] Facts₀.bcast_S8_S1x1x8_2 (iotaInDim S8 32 0)) (ix3 t k e) = BitVec.ofNat 32 e.val := by
  refine (broadcastInDim_apply _ Facts₀.bcast_S1x1x8_S8192x2x8_0_1_2 _ (ix3 t k e) (ix3 (0 : Fin 1) (0 : Fin 1) e) (fun a => ?_)).trans
    ((broadcastInDim_apply _ Facts₀.bcast_S8_S1x1x8_2 (iotaInDim S8 32 0) (ix3 (0 : Fin 1) (0 : Fin 1) e) (ix1 e) (fun a => ?_)).trans rfl)
  · match a with
    | ⟨0, _⟩ => show 0 = if (1 : Nat) = 1 then 0 else t.val; rw [if_pos rfl]
    | ⟨1, _⟩ => show 0 = if (1 : Nat) = 1 then 0 else k.val; rw [if_pos rfl]
    | ⟨2, _⟩ => show e.val = if (8 : Nat) = 1 then 0 else e.val; rw [if_neg (by decide)]
  · match a with
    | ⟨0, _⟩ => show e.val = if (8 : Nat) = 1 then 0 else e.val; rw [if_neg (by decide)]

/-- The combine-weight array at `(t, e)` is the routing weight of token `t` for expert `e`. -/
theorem V_we_apply (c : Dev nD) (t : Fin 8192) (e : Fin 8) :
    (V m c main_v8 : S8192x8.Idx → EReal) (ix2 t e)
      = weight (m ((c : Thread nD τ).loc main_arg1)) (m ((c : Thread nD τ).loc main_arg2)) t (BitVec.ofNat 32 e.val) := by
  rw [V_we]
  simp only [Host.reduceAdd, Ideal.hostReduceAdd_def]
  rw [Ideal.hostReduceAdd_single Facts₀.reducesTo_S8192x2x8_S8192x8_d1 (by decide)]
  unfold weight
  refine congrArg₂ (· + ·) Ideal.ofBits_zero_f32 (Finset.sum_congr rfl fun k _ => ?_)
  have hl : (by decide : S8192x2x8.Reduces [1] S8192x8).lift (ix2 t e) k = ix3 t (⟨k.val, k.isLt⟩ : Fin 2) e :=
    funext fun a => Fin.ext (by match a with | ⟨0, _⟩ => rfl | ⟨1, _⟩ => rfl | ⟨2, _⟩ => rfl)
  rw [hl, select_apply, slot_apply]
  show Scalar.select (IntOp.cmpi .eq _ _) _ (Ideal.ofBits .f32 0x00000000#32) = _
  rw [slot_apply, column_apply, Ideal.ofBits_zero_f32]
  unfold Scalar.select
  exact if_congr IntOp.cmpi_eq rfl rfl

end Cert.KernelIdeal.Blocks

end
-- ==== Proof.KernelStep.lean ====
/-
  The accumulator over the 32 points of one token block.

  Point `n` adds to the accumulator the term  M n = (chunk `n % 4` of expert `(n / 4) % 8`'s feed-forward output) · (that
  expert's routing weight), for the tokens of block `n / 32`; the first point of a block starts from zero.  So after the
  last point of a block the accumulator is  0 + ∑ₛ M (32 q + s),  s = 0 … 31.
-/
import proofs.«104996_j46832323395779_2_alg».proof.Proof.KernelPoint
import proofs.«104996_j46832323395779_2_alg».proof.Proof.KernelPieces
import proofs.«104996_j46832323395779_2_alg».proof.Proof.KernelBlocks

noncomputable section

namespace Cert.KernelIdeal.Step

open Cert.KernelIdeal Cert.KernelIdeal.Gen Idealize.ShloMosaic Idealize.ShloMosaic.TcCoe Idealize.SL.Sem
open Idealize.ShloMosaic.ValueIdx Cert.MoE Cert.KernelIdeal.Blocks Cert.KernelIdeal.Point

variable (m : (ℓ : Loc nD τ sig) → Buf (Elt Ideal) ℓ)

/-! ## The blocks of a point, entry by entry -/

theorem iblk0_apply (c : Dev nD) (t : Fin cfg0.N) (r : Fin 512) (q : Fin 1024) :
    (iblk m c 0 t : S512x1024.Idx → EReal) (ix2 r q) = m ((c : Thread nD τ).loc main_arg0) (ix2 (rowN t.val r) q) := by
  obtain ⟨e0, e1, -⟩ := idx_facts t
  have hN : t.val < 512 := lt_of_lt_of_eq t.isLt N_0
  unfold iblk
  rw [View.read_apply]
  show (V m c main_v9 : S8192x1024.Idx → EReal) _ = _
  rw [V_x]
  refine congrArg _ (funext fun a => Fin.ext ?_)
  match a with
  | ⟨0, _⟩ => show win0_0.index t (0 : Fin 2) * 512 + 1 * r.val = 512 * (t.val / 32 % 16) + r.val; omega
  | ⟨1, _⟩ => show win0_0.index t (1 : Fin 2) * 1024 + 1 * q.val = q.val; omega

theorem iblk1_apply (c : Dev nD) (t : Fin cfg0.N) (q j : Fin 1024) :
    (iblk m c 1 t : S1x1024x1024.Idx → EReal) (ix3 (0 : Fin 1) q j)
      = m ((c : Thread nD τ).loc main_arg3) (ix3 (expertN t.val) q (chunk (chunkN t.val) j)) := by
  obtain ⟨-, -, e0, e1, e2, -⟩ := idx_facts t
  unfold iblk
  rw [View.read_apply]
  show (V m c main_v10 : S8x1024x4096.Idx → EReal) _ = _
  rw [V_w1]
  refine congrArg _ (funext fun a => Fin.ext ?_)
  match a with
  | ⟨0, _⟩ => show win0_1.index t (0 : Fin 3) * 1 + 1 * 0 = t.val / 4 % 8; omega
  | ⟨1, _⟩ => show win0_1.index t (1 : Fin 3) * 1024 + 1 * q.val = q.val; omega
  | ⟨2, _⟩ => show win0_1.index t (2 : Fin 3) * 1024 + 1 * j.val = j.val + 1024 * (t.val % 4); omega

theorem iblk2_apply (c : Dev nD) (t : Fin cfg0.N) (j d : Fin 1024) :
    (iblk m c 2 t : S1x1024x1024.Idx → EReal) (ix3 (0 : Fin 1) j d)
      = m ((c : Thread nD τ).loc main_arg4) (ix3 (expertN t.val) (chunk (chunkN t.val) j) d) := by
  obtain ⟨-, -, -, -, -, e0, e1, e2, -⟩ := idx_facts t
  unfold iblk
  rw [View.read_apply]
  show (V m c main_v11 : S8x4096x1024.Idx → EReal) _ = _
  rw [V_w2]
  refine congrArg _ (funext fun a => Fin.ext ?_)
  match a with
  | ⟨0, _⟩ => show win0_2.index t (0 : Fin 3) * 1 + 1 * 0 = t.val / 4 % 8; omega
  | ⟨1, _⟩ => show win0_2.index t (1 : Fin 3) * 1024 + 1 * j.val = j.val + 1024 * (t.val % 4); omega
  | ⟨2, _⟩ => show win0_2.index t (2 : Fin 3) * 1024 + 1 * d.val = d.val; omega

theorem iblk3_apply (c : Dev nD) (t : Fin cfg0.N) (r : Fin 512) (e : Fin 8) :
    (iblk m c 3 t : S512x8.Idx → EReal) (ix2 r e)
      = weight (m ((c : Thread nD τ).loc main_arg1)) (m ((c : Thread nD τ).loc main_arg2)) (rowN t.val r) (BitVec.ofNat 32 e.val) := by
  obtain ⟨-, -, -, -, -, -, -, -, e0, e1, -⟩ := idx_facts t
  have hN : t.val < 512 := lt_of_lt_of_eq t.isLt N_0
  unfold iblk
  rw [View.read_apply]
  show (V m c main_v8 : S8192x8.Idx → EReal) _ = _
  refine Eq.trans (congrArg _ (funext fun a => Fin.ext ?_)) (V_we_apply m c (rowN t.val r) e)
  match a with
  | ⟨0, _⟩ => show win0_3.index t (0 : Fin 2) * 512 + 1 * r.val = 512 * (t.val / 32 % 16) + r.val; omega
  | ⟨1, _⟩ => show win0_3.index t (1 : Fin 2) * 8 + 1 * e.val = e.val; omega

/-! ## The term a point adds -/

/-- What point `n` adds to the accumulator at `i = (r, d)`. -/
def M (c : Dev nD) (n : ℕ) : S512x1024.Idx → EReal := fun i =>
  (∑ j : Fin 1024, term (m ((c : Thread nD τ).loc main_arg0)) (m ((c : Thread nD τ).loc main_arg3)) (m ((c : Thread nD τ).loc main_arg4))
      (expertN n) (rowN n (i 0)) (i 1) (chunk (chunkN n) j))
    * weight (m ((c : Thread nD τ).loc main_arg1)) (m ((c : Thread nD τ).loc main_arg2)) (rowN n (i 0)) (BitVec.ofNat 32 (expertN n).val)

/-- The body's accumulation at point `t`, on the point's own blocks. -/
theorem point_at (c : Dev nD) (t : Fin cfg0.N) (acc : S512x1024.Idx → EReal) (r : Fin 512) (d : Fin 1024) :
    (k0_pay1 (F := Ideal) (k0_pay3 (F := Ideal) (iblk m c 0 t) (iblk m c 1 t) (iblk m c 2 t))
        (k0_pay4 (F := Ideal) (grid0.coords t) (iblk m c 3 t)) acc (ix2 r d) : EReal)
      = acc (ix2 r d) + M m c t.val (ix2 r d) :=
  point_apply (grid0.coords t) (expertN t.val) (idx_facts t).2.2.2.2.2.2.2.2.2.2.2.2 (iblk m c 0 t) (iblk m c 1 t) (iblk m c 2 t) (iblk m c 3 t) acc
    (m ((c : Thread nD τ).loc main_arg0)) (m ((c : Thread nD τ).loc main_arg3)) (m ((c : Thread nD τ).loc main_arg4))
    (m ((c : Thread nD τ).loc main_arg1)) (m ((c : Thread nD τ).loc main_arg2)) (rowN t.val) (chunkN t.val)
    (iblk0_apply m c t) (iblk1_apply m c t) (iblk2_apply m c t) (fun r => iblk3_apply m c t r (expertN t.val)) r d

/-- What a point leaves in the accumulator: what it held (zero at the first point of a token block) plus the point's term. -/
theorem step_apply (c : Dev nD) (n : ℕ) (hb : n < cfg0.N) (acc : S512x1024.Idx → EReal) (i : S512x1024.Idx) :
    (Value.scAt0_0 m c n hb acc i : EReal) = (if n % 32 = 0 then 0 else acc i) + M m c n i := by
  obtain ⟨r, d, rfl⟩ : ∃ (r : Fin 512) (d : Fin 1024), i = ix2 r d := ⟨i 0, i 1, eq_ix2 i⟩
  have hN : n < 512 := lt_of_lt_of_eq hb N_0
  unfold Value.scAt0_0
  by_cases h0 : n % 32 = 0
  · have h1 : ¬ n % 32 = 31 := by omega
    rw [dif_pos h0, dif_neg h1, if_pos h0]
    refine (congrFun (Pieces.scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))) (ix2 r d)).trans ?_
    refine (point_at m c (⟨n, hb⟩ : Fin cfg0.N) (k0_pay2 (F := Ideal)) r d).trans ?_
    rw [reset_apply]
  · rw [dif_neg h0, if_neg h0]
    by_cases h1 : n % 32 = 31
    · rw [dif_pos h1]
      refine (congrFun (Pieces.scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 r d)).trans ?_
      exact point_at m c (⟨n, hb⟩ : Fin cfg0.N) acc r d
    · rw [dif_neg h1]
      refine (congrFun (Pieces.scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc) (ix2 r d)).trans ?_
      exact point_at m c (⟨n, hb⟩ : Fin cfg0.N) acc r d

/-! ## The fold over a token block -/

/-- After the last point of a token block the accumulator holds the sum of the block's 32 terms. -/
theorem scratch_fold (c : Dev nD) (t : Fin cfg0.N) (ht : t.val % 32 = 31) (i : S512x1024.Idx) :
    ((outsAt0 m c t.val t.isLt).2 i : EReal) = 0 + ∑ s ∈ Finset.range 32, M m c (32 * (t.val / 32) + s) i := by
  rw [Value.soutsAt0_0_eq m c t]
  have key : ∀ (j : ℕ) (hj : j = 31) (h : 32 * (t.val / 32) + j < cfg0.N),
      (Pipeline.accAt (fun n h => Value.scAt0_0 m c n h (VS0_0.read (Elt Ideal) VS0_0.junk)) (Value.scAt0_0 m c) (32 * (t.val / 32)) j h i : EReal)
        = 0 + ∑ s ∈ Finset.range 32, M m c (32 * (t.val / 32) + s) i := by
    intro j hj h
    subst hj
    exact Pipeline.accAt_add_apply (ι := S512x1024.Idx) (β := EReal)
      (fun n h => Value.scAt0_0 m c n h (VS0_0.read (Elt Ideal) VS0_0.junk)) (Value.scAt0_0 m c) (fun _ => 0) (M m c)
      (32 * (t.val / 32)) 31
      (fun h i => by rw [step_apply, if_pos (Nat.mul_mod_right 32 _)])
      (fun n h acc i hlo hhi => by rw [step_apply, if_neg (by omega)])
      31 le_rfl h i
  exact key _ ht _

/-- At the last point of a token block the output block receives what the accumulator ends with. -/
theorem out_eq_scratch (c : Dev nD) (t : Fin cfg0.N) (ht : t.val % 32 = 31) :
    (outsAt0 m c t.val t.isLt).1 = (outsAt0 m c t.val t.isLt).2 := by
  have h0 : ¬ t.val % 32 = 0 := by omega
  rw [outsAt0_C m c t h0 ht]
  dsimp only
  rw [Pieces.out_C, Pieces.scratch_C]

end Cert.KernelIdeal.Step

end
-- ==== Proof.KernelValue.lean ====
/-
  The kernel's result array.

  The output block of a token block is written back once, after the block's last point, and holds what the accumulator
  ends with: the sum of the block's 32 chunk terms.  Regrouped expert by expert (the join of the chunked and the
  expert-by-expert accumulation, which needs every chunk sum and every weight to be a real number) this is the
  mixture-of-experts output at the block's rows.  The sixteen blocks tile the array, so the array ends holding that function.
-/
import proofs.«104996_j46832323395779_2_alg».proof.Proof.KernelStep

noncomputable section

namespace Cert.KernelIdeal.Result

open Cert.KernelIdeal Cert.KernelIdeal.Gen Idealize.ShloMosaic Idealize.ShloMosaic.TcCoe Idealize.SL.Sem
open Idealize.ShloMosaic.ValueIdx Cert.MoE Cert.KernelIdeal.Blocks
open Idealize.ShloMosaic.Pipeline (Dat)

variable (m : (ℓ : Loc nD τ sig) → Buf (Elt Ideal) ℓ) (ρ : Dev nD → PrngReg)

/-- The mixture-of-experts output of the arguments as launched, as contents of the result array. -/
def G (c : Dev nD) : Buf (Elt Ideal) ((c : Thread nD τ).loc main_v12) :=
  moe (m ((c : Thread nD τ).loc main_arg0)) (m ((c : Thread nD τ).loc main_arg1)) (m ((c : Thread nD τ).loc main_arg2)) (m ((c : Thread nD τ).loc main_arg3)) (m ((c : Thread nD τ).loc main_arg4))

/-- The arguments hold real numbers on device `c`. -/
structure Real (c : Dev nD) : Prop where
  x : ∀ i, IsReal ((m ((c : Thread nD τ).loc main_arg0)) i)
  rw : ∀ i, IsReal ((m ((c : Thread nD τ).loc main_arg2)) i)
  w1 : ∀ i, IsReal ((m ((c : Thread nD τ).loc main_arg3)) i)
  w2 : ∀ i, IsReal ((m ((c : Thread nD τ).loc main_arg4)) i)

/-- An index of the result array lies in point `t`'s output block iff each coordinate lies in the block's range. -/
theorem mem_blk (t : Fin cfg0.N) (i : S8192x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v12).slice (win0_4.rect t)).set ↔ _
  rw [View.set_slice_whole, Rect.mem_set_unit]
  exact Iff.rfl

/-- What the last point of a token block writes back is that block of the mixture-of-experts output. -/
theorem flushed_eq (c : Dev nD) (hR : Real m c) (t : Fin cfg0.N) (hf : (cfg0.win 4).flush t = true) :
    (dats m 0 c).flushed 4 t = ((cfg0.win 4).blk t).view.read (Elt Ideal) (G m c) := by
  have ht : t.val % 32 = 31 := (flush0_4 t).mp hf
  have hN : t.val < 512 := lt_of_lt_of_eq t.isLt N_0
  obtain ⟨-, -, -, -, -, -, -, -, -, -, e0, e1, -⟩ := idx_facts t
  rw [Value.flushed4]
  funext j
  rw [View.read_apply]
  obtain ⟨r, d, rfl⟩ : ∃ (r : Fin 512) (d : Fin 1024), j = ix2 r d := ⟨j 0, j 1, eq_ix2 (n0 := 512) (n1 := 1024) j⟩
  show ((outsAt0 m c t.val t.isLt).1 (ix2 r d) : EReal) = G m c (((cfg0.win 4).blk t).view.emb (ix2 r d))
  rw [Step.out_eq_scratch m c t ht, Step.scratch_fold m c t ht (ix2 r d)]
  have hT : ((cfg0.win 4).blk t).view.emb (ix2 r d) = ix2 (rowN t.val r) d := funext fun a => Fin.ext (by
    match a with
    | ⟨0, _⟩ => show win0_4.index t (0 : Fin 2) * 512 + 1 * r.val = 512 * (t.val / 32 % 16) + r.val; omega
    | ⟨1, _⟩ => show win0_4.index t (1 : Fin 2) * 1024 + 1 * d.val = d.val; omega)
  rw [hT]
  refine (join 0 (fun s => Step.M m c (32 * (t.val / 32) + s) (ix2 r d))
    (fun e f => term (m ((c : Thread nD τ).loc main_arg0)) (m ((c : Thread nD τ).loc main_arg3)) (m ((c : Thread nD τ).loc main_arg4)) e (rowN t.val r) d f)
    (fun e => weight (m ((c : Thread nD τ).loc main_arg1)) (m ((c : Thread nD τ).loc main_arg2)) (rowN t.val r) (BitVec.ofNat 32 e.val))
    (fun e c' => ?_) (fun e f => isReal_term hR.x hR.w1 hR.w2 e _ d f) (fun e => isReal_weight hR.rw _ _)).trans rfl
  have he := e.isLt
  have hc := c'.isLt
  have hE : expertN (32 * (t.val / 32) + (c'.val + 4 * e.val)) = e := Fin.ext (by
    show (32 * (t.val / 32) + (c'.val + 4 * e.val)) / 4 % 8 = e.val; omega)
  have hC : chunkN (32 * (t.val / 32) + (c'.val + 4 * e.val)) = c' := Fin.ext (by
    show (32 * (t.val / 32) + (c'.val + 4 * e.val)) % 4 = c'.val; omega)
  have hRow : rowN (32 * (t.val / 32) + (c'.val + 4 * e.val)) r = rowN t.val r := Fin.ext (by
    show 512 * ((32 * (t.val / 32) + (c'.val + 4 * e.val)) / 32 % 16) + r.val = 512 * (t.val / 32 % 16) + r.val; omega)
  show (∑ j : Fin 1024, term (m ((c : Thread nD τ).loc main_arg0)) (m ((c : Thread nD τ).loc main_arg3)) (m ((c : Thread nD τ).loc main_arg4))
      (expertN (32 * (t.val / 32) + (c'.val + 4 * e.val))) (rowN (32 * (t.val / 32) + (c'.val + 4 * e.val)) r) d
      (chunk (chunkN (32 * (t.val / 32) + (c'.val + 4 * e.val))) j))
    * weight (m ((c : Thread nD τ).loc main_arg1)) (m ((c : Thread nD τ).loc main_arg2)) (rowN (32 * (t.val / 32) + (c'.val + 4 * e.val)) r)
      (BitVec.ofNat 32 (expertN (32 * (t.val / 32) + (c'.val + 4 * e.val))).val) = _
  rw [hE, hC, hRow]

/-- Every index of the result array lies in the output block of the last point of its token block. -/
theorem cover (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hlt : 32 * ((i 0).val / 512) + 31 < cfg0.N := by rw [show cfg0.N = 512 from N_0]; omega
  refine ⟨⟨32 * ((i 0).val / 512) + 31, hlt⟩, (flush0_4 _).mpr (by show (32 * ((i 0).val / 512) + 31) % 32 = 31; omega), ?_⟩
  obtain ⟨-, -, -, -, -, -, -, -, -, -, e0, e1, -⟩ := idx_facts ⟨32 * ((i 0).val / 512) + 31, hlt⟩
  have e0' : win0_4.index ⟨32 * ((i 0).val / 512) + 31, hlt⟩ (0 : Fin 2) = (32 * ((i 0).val / 512) + 31) / 32 := e0
  rw [mem_blk]
  intro a
  match a with
  | ⟨0, _⟩ =>
    show win0_4.index ⟨32 * ((i 0).val / 512) + 31, hlt⟩ (0 : Fin 2) * 512 ≤ (i 0).val
      ∧ (i 0).val < win0_4.index ⟨32 * ((i 0).val / 512) + 31, hlt⟩ (0 : Fin 2) * 512 + 512
    rw [e0']; omega
  | ⟨1, _⟩ =>
    show win0_4.index ⟨32 * ((i 0).val / 512) + 31, hlt⟩ (1 : Fin 2) * 1024 ≤ (i 1).val
      ∧ (i 1).val < win0_4.index ⟨32 * ((i 0).val / 512) + 31, hlt⟩ (1 : Fin 2) * 1024 + 1024
    rw [e1]; omega

/-- The result array after the run. -/
theorem final (c : Dev nD) (hR : Real m c) : (dats m 0 c).arrAt 4 cfg0.N = G m c :=
  (dats m 0 c).arrAt_eq_of_cover 4 (G m c) (fun t hf => flushed_eq m c hR t hf) cover

/-- The kernel's run, read: the result array at the mixture-of-experts output of the arguments, the arguments unchanged. -/
theorem run (hR : ∀ c, Real m c) : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hR c)), (h c).2⟩) (Value.run_blocks m ρ)

end Cert.KernelIdeal.Result

end
-- ==== Proof.RefExperts.lean ====
/-
  The reference, expert by expert: each expert's stage of the host program, read at a token and a column, is the
  expert's feed-forward output times the token's routing weight for that expert; the program adds the eight stages
  to a zero array one after the other.
-/
import proofs.«104996_j46832323395779_2_alg».proof.Proof.Gen.ReferenceIdeal.Read
import proofs.«104996_j46832323395779_2_alg».proof.Proof.Spec

noncomputable section

namespace Cert.ReferenceIdeal.Experts

open Cert.ReferenceIdeal Cert.ReferenceIdeal.Read Idealize.ShloMosaic Idealize.ShloMosaic.ValueIdx Cert.MoE

variable (x0 : S8192x1024.Idx → EReal) (x1 : S8192x2.Idx → BitVec 32) (x2 : S8192x2.Idx → EReal)
  (x3 : S8x1024x4096.Idx → EReal) (x4 : S8x4096x1024.Idx → EReal)

/-! ## Expert 0 -/

/-- The hidden activation of expert 0: the product of the token's row with slice 0 of the first weight array. -/
theorem hid0 (t : Fin 8192) (f : Fin 4096) :
    val_main_v7 (F := Ideal) x0 x3 (ix2 t f) = hid x0 x3 0 t f := by
  rw [val_main_v7_apply]
  refine Finset.sum_congr rfl fun q _ => ?_
  rw [val_main_v6_apply, val_main_v5_apply]
  have hq := q.isLt
  have hf := f.isLt
  refine congrArg₂ (· * ·) (congrArg x0 ?_) (congrArg x3 (funext fun a => Fin.ext ?_))
  · exact funext fun a => Fin.ext (by match a with | ⟨0, _⟩ => rfl | ⟨1, _⟩ => rfl)
  · match a with
    | ⟨0, _⟩ => rfl
    | ⟨1, _⟩ => show (q.val * 4096 + f.val) / 4096 % 1024 = q.val; omega
    | ⟨2, _⟩ => show (q.val * 4096 + f.val) % 4096 = f.val; omega

/-- The GELU of expert 0, entry by entry: the host spells the cube as (h·h)·h. -/
theorem gelu0 (i : S8192x4096.Idx) :
    val_main_v20 (F := Ideal) x0 x3 i = gelu (val_main_v7 (F := Ideal) x0 x3 i) := by
  rw [val_main_v20_apply, val_main_v19_apply, val_main_v18_apply, val_main_v17_apply, val_main_v16_apply, val_main_v15_apply,
    val_main_v14_apply, val_main_v13_apply, val_main_v12_apply, val_main_v11_apply, val_main_v10_apply, val_main_v9_apply, val_main_v8_apply]
  generalize val_main_v7 (F := Ideal) x0 x3 i = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = _
  unfold Cert.MoE.gelu
  rw [mul_comm (h * h) h]

/-- The feed-forward output of expert 0 for token `t` and column `d`. -/
theorem ffn0 (t : Fin 8192) (d : Fin 1024) :
    val_main_v23 (F := Ideal) x0 x3 x4 (ix2 t d) = ∑ f, term x0 x3 x4 0 t d f := by
  rw [val_main_v23_apply]
  refine Finset.sum_congr rfl fun f _ => ?_
  have hl : lidx_main_v23 (ix2 t d) f = ix2 t f :=
    funext fun a => Fin.ext (by match a with | ⟨0, _⟩ => rfl | ⟨1, _⟩ => rfl)
  rw [hl, gelu0, hid0, val_main_v22_apply, val_main_v21_apply]
  have hf := f.isLt
  have hd := d.isLt
  unfold term
  refine congrArg (_ * ·) (congrArg x4 (funext fun a => Fin.ext ?_))
  match a with
  | ⟨0, _⟩ => rfl
  | ⟨1, _⟩ => show (f.val * 1024 + d.val) / 1024 % 4096 = f.val; omega
  | ⟨2, _⟩ => show (f.val * 1024 + d.val) % 1024 = d.val; omega

/-- The routing weight of expert 0, broadcast along the columns. -/
theorem weight0 (t : Fin 8192) (d : Fin 1024) :
    val_main_v25 (F := Ideal) x1 x2 (ix2 t d) = weight x1 x2 t 0#32 := by
  rw [val_main_v25_apply, val_main_v24_apply, val_main_v4_apply]
  unfold weight
  refine congrArg₂ (· + ·) Ideal.ofBits_zero_f32 (Finset.sum_congr rfl fun k _ => ?_)
  have hi : idx_main_v4 (idx_main_v24 (idx_main_v25 (ix2 t d))) k = ix2 t k :=
    funext fun a => Fin.ext (by match a with | ⟨0, _⟩ => rfl | ⟨1, _⟩ => rfl)
  rw [hi, val_main_v3_apply, val_main_call0_v1_apply, val_main_v2_apply, val_main_v1_apply]
  show Scalar.select (IntOp.cmpi .eq (x1 (ix2 t k)) 0#32) (x2 (ix2 t k)) (Ideal.ofBits .f32 0x00000000#32) = _
  rw [Ideal.ofBits_zero_f32]
  unfold Scalar.select
  exact if_congr IntOp.cmpi_eq rfl rfl

/-- Expert 0's stage: its feed-forward output times its routing weight. -/
theorem stage0 (t : Fin 8192) (d : Fin 1024) :
    val_main_v26 (F := Ideal) x0 x1 x2 x3 x4 (ix2 t d) = (∑ f, term x0 x3 x4 0 t d f) * weight x1 x2 t 0#32 := by
  rw [val_main_v26_apply, ffn0, weight0]
  rfl

/-! ## Expert 1 -/

/-- The hidden activation of expert 1: the product of the token's row with slice 1 of the first weight array. -/
theorem hid1 (t : Fin 8192) (f : Fin 4096) :
    val_main_v34 (F := Ideal) x0 x3 (ix2 t f) = hid x0 x3 1 t f := by
  rw [val_main_v34_apply]
  refine Finset.sum_congr rfl fun q _ => ?_
  rw [val_main_v33_apply, val_main_v32_apply]
  have hq := q.isLt
  have hf := f.isLt
  refine congrArg₂ (· * ·) (congrArg x0 ?_) (congrArg x3 (funext fun a => Fin.ext ?_))
  · exact funext fun a => Fin.ext (by match a with | ⟨0, _⟩ => rfl | ⟨1, _⟩ => rfl)
  · match a with
    | ⟨0, _⟩ => rfl
    | ⟨1, _⟩ => show (q.val * 4096 + f.val) / 4096 % 1024 = q.val; omega
    | ⟨2, _⟩ => show (q.val * 4096 + f.val) % 4096 = f.val; omega

/-- The GELU of expert 1, entry by entry: the host spells the cube as (h·h)·h. -/
theorem gelu1 (i : S8192x4096.Idx) :
    val_main_v47 (F := Ideal) x0 x3 i = gelu (val_main_v34 (F := Ideal) x0 x3 i) := by
  rw [val_main_v47_apply, val_main_v46_apply, val_main_v45_apply, val_main_v44_apply, val_main_v43_apply, val_main_v42_apply,
    val_main_v41_apply, val_main_v40_apply, val_main_v39_apply, val_main_v38_apply, val_main_v37_apply, val_main_v36_apply, val_main_v35_apply]
  generalize val_main_v34 (F := Ideal) x0 x3 i = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = _
  unfold Cert.MoE.gelu
  rw [mul_comm (h * h) h]

/-- The feed-forward output of expert 1 for token `t` and column `d`. -/
theorem ffn1 (t : Fin 8192) (d : Fin 1024) :
    val_main_v50 (F := Ideal) x0 x3 x4 (ix2 t d) = ∑ f, term x0 x3 x4 1 t d f := by
  rw [val_main_v50_apply]
  refine Finset.sum_congr rfl fun f _ => ?_
  have hl : lidx_main_v50 (ix2 t d) f = ix2 t f :=
    funext fun a => Fin.ext (by match a with | ⟨0, _⟩ => rfl | ⟨1, _⟩ => rfl)
  rw [hl, gelu1, hid1, val_main_v49_apply, val_main_v48_apply]
  have hf := f.isLt
  have hd := d.isLt
  unfold term
  refine congrArg (_ * ·) (congrArg x4 (funext fun a => Fin.ext ?_))
  match a with
  | ⟨0, _⟩ => rfl
  | ⟨1, _⟩ => show (f.val * 1024 + d.val) / 1024 % 4096 = f.val; omega
  | ⟨2, _⟩ => show (f.val * 1024 + d.val) % 1024 = d.val; omega

/-- The routing weight of expert 1, broadcast along the columns. -/
theorem weight1 (t : Fin 8192) (d : Fin 1024) :
    val_main_v52 (F := Ideal) x1 x2 (ix2 t d) = weight x1 x2 t 1#32 := by
  rw [val_main_v52_apply, val_main_v51_apply, val_main_v31_apply]
  unfold weight
  refine congrArg₂ (· + ·) Ideal.ofBits_zero_f32 (Finset.sum_congr rfl fun k _ => ?_)
  have hi : idx_main_v31 (idx_main_v51 (idx_main_v52 (ix2 t d))) k = ix2 t k :=
    funext fun a => Fin.ext (by match a with | ⟨0, _⟩ => rfl | ⟨1, _⟩ => rfl)
  rw [hi, val_main_v30_apply, val_main_call1_v1_apply, val_main_v29_apply, val_main_v28_apply]
  show Scalar.select (IntOp.cmpi .eq (x1 (ix2 t k)) 1#32) (x2 (ix2 t k)) (Ideal.ofBits .f32 0x00000000#32) = _
  rw [Ideal.ofBits_zero_f32]
  unfold Scalar.select
  exact if_congr IntOp.cmpi_eq rfl rfl

/-- Expert 1's stage: its feed-forward output times its routing weight. -/
theorem stage1 (t : Fin 8192) (d : Fin 1024) :
    val_main_v53 (F := Ideal) x0 x1 x2 x3 x4 (ix2 t d) = (∑ f, term x0 x3 x4 1 t d f) * weight x1 x2 t 1#32 := by
  rw [val_main_v53_apply, ffn1, weight1]
  rfl

/-! ## Expert 2 -/

/-- The hidden activation of expert 2: the product of the token's row with slice 2 of the first weight array. -/
theorem hid2 (t : Fin 8192) (f : Fin 4096) :
    val_main_v61 (F := Ideal) x0 x3 (ix2 t f) = hid x0 x3 2 t f := by
  rw [val_main_v61_apply]
  refine Finset.sum_congr rfl fun q _ => ?_
  rw [val_main_v60_apply, val_main_v59_apply]
  have hq := q.isLt
  have hf := f.isLt
  refine congrArg₂ (· * ·) (congrArg x0 ?_) (congrArg x3 (funext fun a => Fin.ext ?_))
  · exact funext fun a => Fin.ext (by match a with | ⟨0, _⟩ => rfl | ⟨1, _⟩ => rfl)
  · match a with
    | ⟨0, _⟩ => rfl
    | ⟨1, _⟩ => show (q.val * 4096 + f.val) / 4096 % 1024 = q.val; omega
    | ⟨2, _⟩ => show (q.val * 4096 + f.val) % 4096 = f.val; omega

/-- The GELU of expert 2, entry by entry: the host spells the cube as (h·h)·h. -/
theorem gelu2 (i : S8192x4096.Idx) :
    val_main_v74 (F := Ideal) x0 x3 i = gelu (val_main_v61 (F := Ideal) x0 x3 i) := by
  rw [val_main_v74_apply, val_main_v73_apply, val_main_v72_apply, val_main_v71_apply, val_main_v70_apply, val_main_v69_apply,
    val_main_v68_apply, val_main_v67_apply, val_main_v66_apply, val_main_v65_apply, val_main_v64_apply, val_main_v63_apply, val_main_v62_apply]
  generalize val_main_v61 (F := Ideal) x0 x3 i = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = _
  unfold Cert.MoE.gelu
  rw [mul_comm (h * h) h]

/-- The feed-forward output of expert 2 for token `t` and column `d`. -/
theorem ffn2 (t : Fin 8192) (d : Fin 1024) :
    val_main_v77 (F := Ideal) x0 x3 x4 (ix2 t d) = ∑ f, term x0 x3 x4 2 t d f := by
  rw [val_main_v77_apply]
  refine Finset.sum_congr rfl fun f _ => ?_
  have hl : lidx_main_v77 (ix2 t d) f = ix2 t f :=
    funext fun a => Fin.ext (by match a with | ⟨0, _⟩ => rfl | ⟨1, _⟩ => rfl)
  rw [hl, gelu2, hid2, val_main_v76_apply, val_main_v75_apply]
  have hf := f.isLt
  have hd := d.isLt
  unfold term
  refine congrArg (_ * ·) (congrArg x4 (funext fun a => Fin.ext ?_))
  match a with
  | ⟨0, _⟩ => rfl
  | ⟨1, _⟩ => show (f.val * 1024 + d.val) / 1024 % 4096 = f.val; omega
  | ⟨2, _⟩ => show (f.val * 1024 + d.val) % 1024 = d.val; omega

/-- The routing weight of expert 2, broadcast along the columns. -/
theorem weight2 (t : Fin 8192) (d : Fin 1024) :
    val_main_v79 (F := Ideal) x1 x2 (ix2 t d) = weight x1 x2 t 2#32 := by
  rw [val_main_v79_apply, val_main_v78_apply, val_main_v58_apply]
  unfold weight
  refine congrArg₂ (· + ·) Ideal.ofBits_zero_f32 (Finset.sum_congr rfl fun k _ => ?_)
  have hi : idx_main_v58 (idx_main_v78 (idx_main_v79 (ix2 t d))) k = ix2 t k :=
    funext fun a => Fin.ext (by match a with | ⟨0, _⟩ => rfl | ⟨1, _⟩ => rfl)
  rw [hi, val_main_v57_apply, val_main_call2_v1_apply, val_main_v56_apply, val_main_v55_apply]
  show Scalar.select (IntOp.cmpi .eq (x1 (ix2 t k)) 2#32) (x2 (ix2 t k)) (Ideal.ofBits .f32 0x00000000#32) = _
  rw [Ideal.ofBits_zero_f32]
  unfold Scalar.select
  exact if_congr IntOp.cmpi_eq rfl rfl

/-- Expert 2's stage: its feed-forward output times its routing weight. -/
theorem stage2 (t : Fin 8192) (d : Fin 1024) :
    val_main_v80 (F := Ideal) x0 x1 x2 x3 x4 (ix2 t d) = (∑ f, term x0 x3 x4 2 t d f) * weight x1 x2 t 2#32 := by
  rw [val_main_v80_apply, ffn2, weight2]
  rfl

/-! ## Expert 3 -/

/-- The hidden activation of expert 3: the product of the token's row with slice 3 of the first weight array. -/
theorem hid3 (t : Fin 8192) (f : Fin 4096) :
    val_main_v88 (F := Ideal) x0 x3 (ix2 t f) = hid x0 x3 3 t f := by
  rw [val_main_v88_apply]
  refine Finset.sum_congr rfl fun q _ => ?_
  rw [val_main_v87_apply, val_main_v86_apply]
  have hq := q.isLt
  have hf := f.isLt
  refine congrArg₂ (· * ·) (congrArg x0 ?_) (congrArg x3 (funext fun a => Fin.ext ?_))
  · exact funext fun a => Fin.ext (by match a with | ⟨0, _⟩ => rfl | ⟨1, _⟩ => rfl)
  · match a with
    | ⟨0, _⟩ => rfl
    | ⟨1, _⟩ => show (q.val * 4096 + f.val) / 4096 % 1024 = q.val; omega
    | ⟨2, _⟩ => show (q.val * 4096 + f.val) % 4096 = f.val; omega

/-- The GELU of expert 3, entry by entry: the host spells the cube as (h·h)·h. -/
theorem gelu3 (i : S8192x4096.Idx) :
    val_main_v101 (F := Ideal) x0 x3 i = gelu (val_main_v88 (F := Ideal) x0 x3 i) := by
  rw [val_main_v101_apply, val_main_v100_apply, val_main_v99_apply, val_main_v98_apply, val_main_v97_apply, val_main_v96_apply,
    val_main_v95_apply, val_main_v94_apply, val_main_v93_apply, val_main_v92_apply, val_main_v91_apply, val_main_v90_apply, val_main_v89_apply]
  generalize val_main_v88 (F := Ideal) x0 x3 i = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = _
  unfold Cert.MoE.gelu
  rw [mul_comm (h * h) h]

/-- The feed-forward output of expert 3 for token `t` and column `d`. -/
theorem ffn3 (t : Fin 8192) (d : Fin 1024) :
    val_main_v104 (F := Ideal) x0 x3 x4 (ix2 t d) = ∑ f, term x0 x3 x4 3 t d f := by
  rw [val_main_v104_apply]
  refine Finset.sum_congr rfl fun f _ => ?_
  have hl : lidx_main_v104 (ix2 t d) f = ix2 t f :=
    funext fun a => Fin.ext (by match a with | ⟨0, _⟩ => rfl | ⟨1, _⟩ => rfl)
  rw [hl, gelu3, hid3, val_main_v103_apply, val_main_v102_apply]
  have hf := f.isLt
  have hd := d.isLt
  unfold term
  refine congrArg (_ * ·) (congrArg x4 (funext fun a => Fin.ext ?_))
  match a with
  | ⟨0, _⟩ => rfl
  | ⟨1, _⟩ => show (f.val * 1024 + d.val) / 1024 % 4096 = f.val; omega
  | ⟨2, _⟩ => show (f.val * 1024 + d.val) % 1024 = d.val; omega

/-- The routing weight of expert 3, broadcast along the columns. -/
theorem weight3 (t : Fin 8192) (d : Fin 1024) :
    val_main_v106 (F := Ideal) x1 x2 (ix2 t d) = weight x1 x2 t 3#32 := by
  rw [val_main_v106_apply, val_main_v105_apply, val_main_v85_apply]
  unfold weight
  refine congrArg₂ (· + ·) Ideal.ofBits_zero_f32 (Finset.sum_congr rfl fun k _ => ?_)
  have hi : idx_main_v85 (idx_main_v105 (idx_main_v106 (ix2 t d))) k = ix2 t k :=
    funext fun a => Fin.ext (by match a with | ⟨0, _⟩ => rfl | ⟨1, _⟩ => rfl)
  rw [hi, val_main_v84_apply, val_main_call3_v1_apply, val_main_v83_apply, val_main_v82_apply]
  show Scalar.select (IntOp.cmpi .eq (x1 (ix2 t k)) 3#32) (x2 (ix2 t k)) (Ideal.ofBits .f32 0x00000000#32) = _
  rw [Ideal.ofBits_zero_f32]
  unfold Scalar.select
  exact if_congr IntOp.cmpi_eq rfl rfl

/-- Expert 3's stage: its feed-forward output times its routing weight. -/
theorem stage3 (t : Fin 8192) (d : Fin 1024) :
    val_main_v107 (F := Ideal) x0 x1 x2 x3 x4 (ix2 t d) = (∑ f, term x0 x3 x4 3 t d f) * weight x1 x2 t 3#32 := by
  rw [val_main_v107_apply, ffn3, weight3]
  rfl

/-! ## Expert 4 -/

/-- The hidden activation of expert 4: the product of the token's row with slice 4 of the first weight array. -/
theorem hid4 (t : Fin 8192) (f : Fin 4096) :
    val_main_v115 (F := Ideal) x0 x3 (ix2 t f) = hid x0 x3 4 t f := by
  rw [val_main_v115_apply]
  refine Finset.sum_congr rfl fun q _ => ?_
  rw [val_main_v114_apply, val_main_v113_apply]
  have hq := q.isLt
  have hf := f.isLt
  refine congrArg₂ (· * ·) (congrArg x0 ?_) (congrArg x3 (funext fun a => Fin.ext ?_))
  · exact funext fun a => Fin.ext (by match a with | ⟨0, _⟩ => rfl | ⟨1, _⟩ => rfl)
  · match a with
    | ⟨0, _⟩ => rfl
    | ⟨1, _⟩ => show (q.val * 4096 + f.val) / 4096 % 1024 = q.val; omega
    | ⟨2, _⟩ => show (q.val * 4096 + f.val) % 4096 = f.val; omega

/-- The GELU of expert 4, entry by entry: the host spells the cube as (h·h)·h. -/
theorem gelu4 (i : S8192x4096.Idx) :
    val_main_v128 (F := Ideal) x0 x3 i = gelu (val_main_v115 (F := Ideal) x0 x3 i) := by
  rw [val_main_v128_apply, val_main_v127_apply, val_main_v126_apply, val_main_v125_apply, val_main_v124_apply, val_main_v123_apply,
    val_main_v122_apply, val_main_v121_apply, val_main_v120_apply, val_main_v119_apply, val_main_v118_apply, val_main_v117_apply, val_main_v116_apply]
  generalize val_main_v115 (F := Ideal) x0 x3 i = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = _
  unfold Cert.MoE.gelu
  rw [mul_comm (h * h) h]

/-- The feed-forward output of expert 4 for token `t` and column `d`. -/
theorem ffn4 (t : Fin 8192) (d : Fin 1024) :
    val_main_v131 (F := Ideal) x0 x3 x4 (ix2 t d) = ∑ f, term x0 x3 x4 4 t d f := by
  rw [val_main_v131_apply]
  refine Finset.sum_congr rfl fun f _ => ?_
  have hl : lidx_main_v131 (ix2 t d) f = ix2 t f :=
    funext fun a => Fin.ext (by match a with | ⟨0, _⟩ => rfl | ⟨1, _⟩ => rfl)
  rw [hl, gelu4, hid4, val_main_v130_apply, val_main_v129_apply]
  have hf := f.isLt
  have hd := d.isLt
  unfold term
  refine congrArg (_ * ·) (congrArg x4 (funext fun a => Fin.ext ?_))
  match a with
  | ⟨0, _⟩ => rfl
  | ⟨1, _⟩ => show (f.val * 1024 + d.val) / 1024 % 4096 = f.val; omega
  | ⟨2, _⟩ => show (f.val * 1024 + d.val) % 1024 = d.val; omega

/-- The routing weight of expert 4, broadcast along the columns. -/
theorem weight4 (t : Fin 8192) (d : Fin 1024) :
    val_main_v133 (F := Ideal) x1 x2 (ix2 t d) = weight x1 x2 t 4#32 := by
  rw [val_main_v133_apply, val_main_v132_apply, val_main_v112_apply]
  unfold weight
  refine congrArg₂ (· + ·) Ideal.ofBits_zero_f32 (Finset.sum_congr rfl fun k _ => ?_)
  have hi : idx_main_v112 (idx_main_v132 (idx_main_v133 (ix2 t d))) k = ix2 t k :=
    funext fun a => Fin.ext (by match a with | ⟨0, _⟩ => rfl | ⟨1, _⟩ => rfl)
  rw [hi, val_main_v111_apply, val_main_call4_v1_apply, val_main_v110_apply, val_main_v109_apply]
  show Scalar.select (IntOp.cmpi .eq (x1 (ix2 t k)) 4#32) (x2 (ix2 t k)) (Ideal.ofBits .f32 0x00000000#32) = _
  rw [Ideal.ofBits_zero_f32]
  unfold Scalar.select
  exact if_congr IntOp.cmpi_eq rfl rfl

/-- Expert 4's stage: its feed-forward output times its routing weight. -/
theorem stage4 (t : Fin 8192) (d : Fin 1024) :
    val_main_v134 (F := Ideal) x0 x1 x2 x3 x4 (ix2 t d) = (∑ f, term x0 x3 x4 4 t d f) * weight x1 x2 t 4#32 := by
  rw [val_main_v134_apply, ffn4, weight4]
  rfl

/-! ## Expert 5 -/

/-- The hidden activation of expert 5: the product of the token's row with slice 5 of the first weight array. -/
theorem hid5 (t : Fin 8192) (f : Fin 4096) :
    val_main_v142 (F := Ideal) x0 x3 (ix2 t f) = hid x0 x3 5 t f := by
  rw [val_main_v142_apply]
  refine Finset.sum_congr rfl fun q _ => ?_
  rw [val_main_v141_apply, val_main_v140_apply]
  have hq := q.isLt
  have hf := f.isLt
  refine congrArg₂ (· * ·) (congrArg x0 ?_) (congrArg x3 (funext fun a => Fin.ext ?_))
  · exact funext fun a => Fin.ext (by match a with | ⟨0, _⟩ => rfl | ⟨1, _⟩ => rfl)
  · match a with
    | ⟨0, _⟩ => rfl
    | ⟨1, _⟩ => show (q.val * 4096 + f.val) / 4096 % 1024 = q.val; omega
    | ⟨2, _⟩ => show (q.val * 4096 + f.val) % 4096 = f.val; omega

/-- The GELU of expert 5, entry by entry: the host spells the cube as (h·h)·h. -/
theorem gelu5 (i : S8192x4096.Idx) :
    val_main_v155 (F := Ideal) x0 x3 i = gelu (val_main_v142 (F := Ideal) x0 x3 i) := by
  rw [val_main_v155_apply, val_main_v154_apply, val_main_v153_apply, val_main_v152_apply, val_main_v151_apply, val_main_v150_apply,
    val_main_v149_apply, val_main_v148_apply, val_main_v147_apply, val_main_v146_apply, val_main_v145_apply, val_main_v144_apply, val_main_v143_apply]
  generalize val_main_v142 (F := Ideal) x0 x3 i = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = _
  unfold Cert.MoE.gelu
  rw [mul_comm (h * h) h]

/-- The feed-forward output of expert 5 for token `t` and column `d`. -/
theorem ffn5 (t : Fin 8192) (d : Fin 1024) :
    val_main_v158 (F := Ideal) x0 x3 x4 (ix2 t d) = ∑ f, term x0 x3 x4 5 t d f := by
  rw [val_main_v158_apply]
  refine Finset.sum_congr rfl fun f _ => ?_
  have hl : lidx_main_v158 (ix2 t d) f = ix2 t f :=
    funext fun a => Fin.ext (by match a with | ⟨0, _⟩ => rfl | ⟨1, _⟩ => rfl)
  rw [hl, gelu5, hid5, val_main_v157_apply, val_main_v156_apply]
  have hf := f.isLt
  have hd := d.isLt
  unfold term
  refine congrArg (_ * ·) (congrArg x4 (funext fun a => Fin.ext ?_))
  match a with
  | ⟨0, _⟩ => rfl
  | ⟨1, _⟩ => show (f.val * 1024 + d.val) / 1024 % 4096 = f.val; omega
  | ⟨2, _⟩ => show (f.val * 1024 + d.val) % 1024 = d.val; omega

/-- The routing weight of expert 5, broadcast along the columns. -/
theorem weight5 (t : Fin 8192) (d : Fin 1024) :
    val_main_v160 (F := Ideal) x1 x2 (ix2 t d) = weight x1 x2 t 5#32 := by
  rw [val_main_v160_apply, val_main_v159_apply, val_main_v139_apply]
  unfold weight
  refine congrArg₂ (· + ·) Ideal.ofBits_zero_f32 (Finset.sum_congr rfl fun k _ => ?_)
  have hi : idx_main_v139 (idx_main_v159 (idx_main_v160 (ix2 t d))) k = ix2 t k :=
    funext fun a => Fin.ext (by match a with | ⟨0, _⟩ => rfl | ⟨1, _⟩ => rfl)
  rw [hi, val_main_v138_apply, val_main_call5_v1_apply, val_main_v137_apply, val_main_v136_apply]
  show Scalar.select (IntOp.cmpi .eq (x1 (ix2 t k)) 5#32) (x2 (ix2 t k)) (Ideal.ofBits .f32 0x00000000#32) = _
  rw [Ideal.ofBits_zero_f32]
  unfold Scalar.select
  exact if_congr IntOp.cmpi_eq rfl rfl

/-- Expert 5's stage: its feed-forward output times its routing weight. -/
theorem stage5 (t : Fin 8192) (d : Fin 1024) :
    val_main_v161 (F := Ideal) x0 x1 x2 x3 x4 (ix2 t d) = (∑ f, term x0 x3 x4 5 t d f) * weight x1 x2 t 5#32 := by
  rw [val_main_v161_apply, ffn5, weight5]
  rfl

/-! ## Expert 6 -/

/-- The hidden activation of expert 6: the product of the token's row with slice 6 of the first weight array. -/
theorem hid6 (t : Fin 8192) (f : Fin 4096) :
    val_main_v169 (F := Ideal) x0 x3 (ix2 t f) = hid x0 x3 6 t f := by
  rw [val_main_v169_apply]
  refine Finset.sum_congr rfl fun q _ => ?_
  rw [val_main_v168_apply, val_main_v167_apply]
  have hq := q.isLt
  have hf := f.isLt
  refine congrArg₂ (· * ·) (congrArg x0 ?_) (congrArg x3 (funext fun a => Fin.ext ?_))
  · exact funext fun a => Fin.ext (by match a with | ⟨0, _⟩ => rfl | ⟨1, _⟩ => rfl)
  · match a with
    | ⟨0, _⟩ => rfl
    | ⟨1, _⟩ => show (q.val * 4096 + f.val) / 4096 % 1024 = q.val; omega
    | ⟨2, _⟩ => show (q.val * 4096 + f.val) % 4096 = f.val; omega

/-- The GELU of expert 6, entry by entry: the host spells the cube as (h·h)·h. -/
theorem gelu6 (i : S8192x4096.Idx) :
    val_main_v182 (F := Ideal) x0 x3 i = gelu (val_main_v169 (F := Ideal) x0 x3 i) := by
  rw [val_main_v182_apply, val_main_v181_apply, val_main_v180_apply, val_main_v179_apply, val_main_v178_apply, val_main_v177_apply,
    val_main_v176_apply, val_main_v175_apply, val_main_v174_apply, val_main_v173_apply, val_main_v172_apply, val_main_v171_apply, val_main_v170_apply]
  generalize val_main_v169 (F := Ideal) x0 x3 i = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = _
  unfold Cert.MoE.gelu
  rw [mul_comm (h * h) h]

/-- The feed-forward output of expert 6 for token `t` and column `d`. -/
theorem ffn6 (t : Fin 8192) (d : Fin 1024) :
    val_main_v185 (F := Ideal) x0 x3 x4 (ix2 t d) = ∑ f, term x0 x3 x4 6 t d f := by
  rw [val_main_v185_apply]
  refine Finset.sum_congr rfl fun f _ => ?_
  have hl : lidx_main_v185 (ix2 t d) f = ix2 t f :=
    funext fun a => Fin.ext (by match a with | ⟨0, _⟩ => rfl | ⟨1, _⟩ => rfl)
  rw [hl, gelu6, hid6, val_main_v184_apply, val_main_v183_apply]
  have hf := f.isLt
  have hd := d.isLt
  unfold term
  refine congrArg (_ * ·) (congrArg x4 (funext fun a => Fin.ext ?_))
  match a with
  | ⟨0, _⟩ => rfl
  | ⟨1, _⟩ => show (f.val * 1024 + d.val) / 1024 % 4096 = f.val; omega
  | ⟨2, _⟩ => show (f.val * 1024 + d.val) % 1024 = d.val; omega

/-- The routing weight of expert 6, broadcast along the columns. -/
theorem weight6 (t : Fin 8192) (d : Fin 1024) :
    val_main_v187 (F := Ideal) x1 x2 (ix2 t d) = weight x1 x2 t 6#32 := by
  rw [val_main_v187_apply, val_main_v186_apply, val_main_v166_apply]
  unfold weight
  refine congrArg₂ (· + ·) Ideal.ofBits_zero_f32 (Finset.sum_congr rfl fun k _ => ?_)
  have hi : idx_main_v166 (idx_main_v186 (idx_main_v187 (ix2 t d))) k = ix2 t k :=
    funext fun a => Fin.ext (by match a with | ⟨0, _⟩ => rfl | ⟨1, _⟩ => rfl)
  rw [hi, val_main_v165_apply, val_main_call6_v1_apply, val_main_v164_apply, val_main_v163_apply]
  show Scalar.select (IntOp.cmpi .eq (x1 (ix2 t k)) 6#32) (x2 (ix2 t k)) (Ideal.ofBits .f32 0x00000000#32) = _
  rw [Ideal.ofBits_zero_f32]
  unfold Scalar.select
  exact if_congr IntOp.cmpi_eq rfl rfl

/-- Expert 6's stage: its feed-forward output times its routing weight. -/
theorem stage6 (t : Fin 8192) (d : Fin 1024) :
    val_main_v188 (F := Ideal) x0 x1 x2 x3 x4 (ix2 t d) = (∑ f, term x0 x3 x4 6 t d f) * weight x1 x2 t 6#32 := by
  rw [val_main_v188_apply, ffn6, weight6]
  rfl

/-! ## Expert 7 -/

/-- The hidden activation of expert 7: the product of the token's row with slice 7 of the first weight array. -/
theorem hid7 (t : Fin 8192) (f : Fin 4096) :
    val_main_v196 (F := Ideal) x0 x3 (ix2 t f) = hid x0 x3 7 t f := by
  rw [val_main_v196_apply]
  refine Finset.sum_congr rfl fun q _ => ?_
  rw [val_main_v195_apply, val_main_v194_apply]
  have hq := q.isLt
  have hf := f.isLt
  refine congrArg₂ (· * ·) (congrArg x0 ?_) (congrArg x3 (funext fun a => Fin.ext ?_))
  · exact funext fun a => Fin.ext (by match a with | ⟨0, _⟩ => rfl | ⟨1, _⟩ => rfl)
  · match a with
    | ⟨0, _⟩ => rfl
    | ⟨1, _⟩ => show (q.val * 4096 + f.val) / 4096 % 1024 = q.val; omega
    | ⟨2, _⟩ => show (q.val * 4096 + f.val) % 4096 = f.val; omega

/-- The GELU of expert 7, entry by entry: the host spells the cube as (h·h)·h. -/
theorem gelu7 (i : S8192x4096.Idx) :
    val_main_v209 (F := Ideal) x0 x3 i = gelu (val_main_v196 (F := Ideal) x0 x3 i) := by
  rw [val_main_v209_apply, val_main_v208_apply, val_main_v207_apply, val_main_v206_apply, val_main_v205_apply, val_main_v204_apply,
    val_main_v203_apply, val_main_v202_apply, val_main_v201_apply, val_main_v200_apply, val_main_v199_apply, val_main_v198_apply, val_main_v197_apply]
  generalize val_main_v196 (F := Ideal) x0 x3 i = h
  show h * (Ideal.ofBits .f32 0x3F000000#32 * (Ideal.ofBits .f32 0x3F800000#32
    + Ideal.tanh (Ideal.ofBits .f32 0x3F4C422A#32 * (h + Ideal.ofBits .f32 0x3D372713#32 * (h * h * h))))) = _
  unfold Cert.MoE.gelu
  rw [mul_comm (h * h) h]

/-- The feed-forward output of expert 7 for token `t` and column `d`. -/
theorem ffn7 (t : Fin 8192) (d : Fin 1024) :
    val_main_v212 (F := Ideal) x0 x3 x4 (ix2 t d) = ∑ f, term x0 x3 x4 7 t d f := by
  rw [val_main_v212_apply]
  refine Finset.sum_congr rfl fun f _ => ?_
  have hl : lidx_main_v212 (ix2 t d) f = ix2 t f :=
    funext fun a => Fin.ext (by match a with | ⟨0, _⟩ => rfl | ⟨1, _⟩ => rfl)
  rw [hl, gelu7, hid7, val_main_v211_apply, val_main_v210_apply]
  have hf := f.isLt
  have hd := d.isLt
  unfold term
  refine congrArg (_ * ·) (congrArg x4 (funext fun a => Fin.ext ?_))
  match a with
  | ⟨0, _⟩ => rfl
  | ⟨1, _⟩ => show (f.val * 1024 + d.val) / 1024 % 4096 = f.val; omega
  | ⟨2, _⟩ => show (f.val * 1024 + d.val) % 1024 = d.val; omega

/-- The routing weight of expert 7, broadcast along the columns. -/
theorem weight7 (t : Fin 8192) (d : Fin 1024) :
    val_main_v214 (F := Ideal) x1 x2 (ix2 t d) = weight x1 x2 t 7#32 := by
  rw [val_main_v214_apply, val_main_v213_apply, val_main_v193_apply]
  unfold weight
  refine congrArg₂ (· + ·) Ideal.ofBits_zero_f32 (Finset.sum_congr rfl fun k _ => ?_)
  have hi : idx_main_v193 (idx_main_v213 (idx_main_v214 (ix2 t d))) k = ix2 t k :=
    funext fun a => Fin.ext (by match a with | ⟨0, _⟩ => rfl | ⟨1, _⟩ => rfl)
  rw [hi, val_main_v192_apply, val_main_call7_v1_apply, val_main_v191_apply, val_main_v190_apply]
  show Scalar.select (IntOp.cmpi .eq (x1 (ix2 t k)) 7#32) (x2 (ix2 t k)) (Ideal.ofBits .f32 0x00000000#32) = _
  rw [Ideal.ofBits_zero_f32]
  unfold Scalar.select
  exact if_congr IntOp.cmpi_eq rfl rfl

/-- Expert 7's stage: its feed-forward output times its routing weight. -/
theorem stage7 (t : Fin 8192) (d : Fin 1024) :
    val_main_v215 (F := Ideal) x0 x1 x2 x3 x4 (ix2 t d) = (∑ f, term x0 x3 x4 7 t d f) * weight x1 x2 t 7#32 := by
  rw [val_main_v215_apply, ffn7, weight7]
  rfl

/-! ## The eight stages added to the zero array -/

/-- The reference's result is the mixture-of-experts output. -/
theorem result_eq : val_main_v216 (F := Ideal) x0 x1 x2 x3 x4 = moe x0 x1 x2 x3 x4 := by
  funext i
  obtain ⟨t, d, rfl⟩ : ∃ (t : Fin 8192) (d : Fin 1024), i = ix2 t d := ⟨i 0, i 1, eq_ix2 i⟩
  rw [val_main_v216_apply, val_main_v189_apply, val_main_v162_apply, val_main_v135_apply, val_main_v108_apply,
    val_main_v81_apply, val_main_v54_apply, val_main_v27_apply, val_main_v0_apply,
    stage0, stage1, stage2, stage3, stage4, stage5, stage6, stage7]
  show Ideal.ofBits .f32 0x00000000#32 + _ + _ + _ + _ + _ + _ + _ + _ = _
  rw [Ideal.ofBits_zero_f32]
  rfl

end Cert.ReferenceIdeal.Experts

end
-- ==== Proof.Finite.lean ====
/-
  From the precondition to real numbers: the precondition says of each of the four float arrays that every entry's
  absolute value is below +∞; an extended real with that property is a real number.
-/
import proofs.«104996_j46832323395779_2_alg».proof.Pre_finite_inputs
import proofs.«104996_j46832323395779_2_alg».proof.Proof.Algebra
import Idealize.ShloMosaic.Lib.ReduceAll
import Idealize.ShloMosaic.Lib.ValueIdx
import Idealize.ShloMosaic.Lib.Affine

noncomputable section

namespace Cert.Finite

open Cert.Pre_finite_inputs Idealize.ShloMosaic Cert.MoE

variable [Cert.Pre_finite_inputs.Facts]

instance : Subsingleton S_.Idx := ⟨fun a b => funext fun d => d.elim0⟩

/-- An extended real whose absolute value is below the float pattern of +∞ is a real number. -/
theorem isReal_of_abs_lt_inf (x : EReal) (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  induction x using EReal.rec with
  | bot => exact absurd h (by simp [Ideal.cmp])
  | top => exact absurd h (by simp [Ideal.cmp])
  | coe r => exact ⟨r, rfl⟩

/-- Under the precondition every entry of the four float arrays is a real number. -/
theorem isReal_of_pre (a0 : S8192x1024.Idx → EReal) (a1 : S8192x2.Idx → BitVec 32) (a2 : S8192x2.Idx → EReal)
    (a3 : S8x1024x4096.Idx → EReal) (a4 : S8x4096x1024.Idx → EReal)
    (h : Cert.Pre_finite_inputs.fn (F := Ideal) a0 a1 a2 a3 a4 = fun _ => 1#1) :
    (∀ i, IsReal (a0 i)) ∧ (∀ i, IsReal (a2 i)) ∧ (∀ i, IsReal (a3 i)) ∧ (∀ i, IsReal (a4 i)) := by
  have h0 := congrFun h ValueIdx.ix0
  dsimp only [fn, fn_part1] at h0
  obtain ⟨h123, r4⟩ := IntOp.andi_eq_one.mp h0
  obtain ⟨h12, r3⟩ := IntOp.andi_eq_one.mp h123
  obtain ⟨r0, r2⟩ := IntOp.andi_eq_one.mp h12
  exact ⟨fun i => isReal_of_abs_lt_inf _ (Host.reduce_andi_all _ _ _ _ _ r0 i),
    fun i => isReal_of_abs_lt_inf _ (Host.reduce_andi_all _ _ _ _ _ r2 i),
    fun i => isReal_of_abs_lt_inf _ (Host.reduce_andi_all _ _ _ _ _ r3 i),
    fun i => isReal_of_abs_lt_inf _ (Host.reduce_andi_all _ _ _ _ _ r4 i)⟩

end Cert.Finite

end
-- ==== Proof.lean ====
/-
  The kernel is a mixture-of-experts feed-forward layer: for every token, eight expert networks  x ↦ gelu (x · W1ₑ) · W2ₑ
  are evaluated and added up with the token's routing weights (the weight of an expert is the sum of the routing
  weights of the slots that selected it, zero if none did).  The reference adds the eight expert outputs one after the
  other.  The kernel cuts the tokens into 16 blocks of 512 and each expert's hidden axis into 4 chunks of 1024, and
  accumulates the 32 chunk terms of a token block in a scratch accumulator, copying it to the result after the last one.

  At the ideal values both are the same function of the arguments (Proof/Spec.lean):
    * the kernel's array is read off its run point by point (Proof/KernelPoint, KernelPieces, KernelBlocks, KernelStep,
      KernelValue) as  0 + ∑ over the 32 steps of (chunk sum) · (routing weight);
    * the reference's array is read stage by stage (Proof/RefExperts) as the eight expert terms added to zero;
    * the two agree because a sum may be cut into chunks and a real factor distributes over a sum of real numbers
      (Proof/Algebra): this is where the precondition — every float input finite (Proof/Finite) — is used; at an
      infinite input the factor would not distribute.
  The changes of float format before the call are the identity at the ideal values, and the ideal pass rewrote nothing, so
  the kernel's idealization is the kernel's own text.
-/
import proofs.«104996_j46832323395779_2_alg».proof.Defs
import proofs.«104996_j46832323395779_2_alg».proof.Proof.Gen.Kernel
import proofs.«104996_j46832323395779_2_alg».proof.Proof.Gen.Kernel.Skeleton
import proofs.«104996_j46832323395779_2_alg».proof.Proof.Gen.Kernel.Launch
import proofs.«104996_j46832323395779_2_alg».proof.Proof.Gen.Kernel.Points
import proofs.«104996_j46832323395779_2_alg».proof.Proof.Gen.Kernel.Frame
import proofs.«104996_j46832323395779_2_alg».proof.Proof.Gen.KernelIdeal
import proofs.«104996_j46832323395779_2_alg».proof.Proof.Gen.KernelIdeal.Skeleton
import proofs.«104996_j46832323395779_2_alg».proof.Proof.Gen.KernelIdeal.Launch
import proofs.«104996_j46832323395779_2_alg».proof.Proof.Gen.KernelIdeal.Points
import proofs.«104996_j46832323395779_2_alg».proof.Proof.Gen.KernelIdeal.Frame
import proofs.«104996_j46832323395779_2_alg».proof.Proof.Gen.ReferenceIdeal
import proofs.«104996_j46832323395779_2_alg».proof.Proof.Gen.Pre_finite_inputs
import proofs.«104996_j46832323395779_2_alg».proof.Proof.Gen.KernelIdeal.Value
import proofs.«104996_j46832323395779_2_alg».proof.Proof.Gen.ReferenceIdeal.Run
import proofs.«104996_j46832323395779_2_alg».proof.Proof.Gen.ReferenceIdeal.Read
import proofs.«104996_j46832323395779_2_alg».proof.Proof.KernelValue
import proofs.«104996_j46832323395779_2_alg».proof.Proof.RefExperts
import proofs.«104996_j46832323395779_2_alg».proof.Proof.Finite
import Idealize.ShloMosaic.Adequacy
import Idealize.ShloMosaic.Init

noncomputable section

namespace Cert.Proof

open Idealize.ShloMosaic Idealize.SL.Sem Cert.Kernel

/-- The three programs run, nothing faulting, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition the kernel's arguments are real numbers on every device. -/
theorem real_of_pre
    (m : (ℓ : Loc Cert.KernelIdeal.nD Cert.KernelIdeal.τ Cert.KernelIdeal.sig) → Buf (Elt Ideal) ℓ) (h : Cert.Pre_KernelIdeal m) (c : Dev Cert.KernelIdeal.nD) :
    Cert.KernelIdeal.Result.Real m c := by
  obtain ⟨h0, h2, h3, h4⟩ := Cert.Finite.isReal_of_pre _ _ _ _ _ (h c)
  exact ⟨h0, h2, h3, h4⟩

/-- At the ideal values the kernel's result array and the reference's both end at the mixture-of-experts output of
    arguments that agree. -/
theorem algebraic : Cert.algebraic_KernelIdeal_ReferenceIdeal := by
  intro m ρ m' ρ' hpre hagree
  refine ⟨fun c => Cert.KernelIdeal.Result.G m c, Cert.KernelIdeal.Result.run m ρ (real_of_pre m hpre), ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v216_eq, Cert.ReferenceIdeal.Experts.result_eq, (hagree c).1, (hagree c).2.1, (hagree c).2.2.1,
    (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
